-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S1000x128 : Shape := ⟨2, ![1000, 128]⟩
abbrev S512x256 : Shape := ⟨2, ![512, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S256x192 .f32) (main_arg6 : FVec F S192 .f32) (main_arg7 : FVec F S192x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x192 .f32 := Host.absf main_arg5
  let main_cst_6 : FVec F S_ .f32 := constant S_ .f32 0x7F800000#32
  let main_v20 : FVec F S256x192 .f32 := broadcastInDim S256x192 ![] bcast_S_S256x192 main_cst_6
  let main_v21 : IVec S256x192 1 := cmpf .olt main_v19 main_v20
  let main_c_7 : IVec S_ 1 := constantI S_ 1 1#1
  let main_v22 : IVec S_ 1 := (fun x v => Host.reduce IntOp.andi x v reducesTo_S256x192_S_d0_1 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192x128 .f32 := Host.absf main_arg7
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x512 .f32) (main_arg1 : IVec S2x800000 32) (main_arg2 : FVec F S1000x128 .f32) (main_arg3 : FVec F S512x256 .f32) (main_arg4 : FVec F S256 .f32) (main_arg5 : FVec F S256x192 .f32) (main_arg6 : FVec F S192 .f32) (main_arg7 : FVec F S192x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S50000x512 : Shape := ⟨2, ![50000, 512]⟩
abbrev S2x800000 : Shape := ⟨2, ![2, 800000]⟩
abbrev S1000x128 : Shape := ⟨2, ![1000, 128]⟩
abbrev S512x256 : Shape := ⟨2, ![512, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S2000x512 : Shape := ⟨2, ![2000, 512]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S50000x192 : Shape := ⟨2, ![50000, 192]⟩
abbrev S2000x192 : Shape := ⟨2, ![2000, 192]⟩
abbrev S800000x192 : Shape := ⟨2, ![800000, 192]⟩
abbrev S1x192 : Shape := ⟨2, ![1, 192]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S128x1000 : Shape := ⟨2, ![128, 1000]⟩
abbrev S50000x1000 : Shape := ⟨2, ![50000, 1000]⟩
abbrev S2000x1000 : Shape := ⟨2, ![2000, 1000]⟩

abbrev nBuf : Space → Nat
  | .hbm => 123
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S1000x128, .f32⟩
  | .hbm, ⟨3, _⟩ => ⟨S512x256, .f32⟩
  | .hbm, ⟨4, _⟩ => ⟨S256, .f32⟩
  | .hbm, ⟨5, _⟩ => ⟨S256x192, .f32⟩
  | .hbm, ⟨6, _⟩ => ⟨S192, .f32⟩
  | .hbm, ⟨7, _⟩ => ⟨S192x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S800000x1, .f32⟩
  | .hbm, ⟨58, _⟩ => ⟨S800000x256, .f32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S50000x192, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x192, .f32⟩
  | .hbm, ⟨81, _⟩ => ⟨S800000x1, .f32⟩
  | .hbm, ⟨82, _⟩ => ⟨S800000x192, .f32⟩
  | .hbm, ⟨83, _⟩ => ⟨S800000x192, .f32⟩
  | .hbm, ⟨84, _⟩ => ⟨S_, .f32⟩
  | .hbm, ⟨85, _⟩ => ⟨S50000x192, .f32⟩
  | .hbm, ⟨86, _⟩ => ⟨S800000x1, .i32⟩
  | .hbm, ⟨87, _⟩ => ⟨S50000x192, .f32⟩
  | .hbm, ⟨88, _⟩ => ⟨S50000x1, .f32⟩
  | .hbm, ⟨89, _⟩ => ⟨S50000x192, .f32⟩
  | .hbm, ⟨90, _⟩ => ⟨S50000x192, .f32⟩
  | .hbm, ⟨91, _⟩ => ⟨S50000x192, .f32⟩
  | .hbm, ⟨92, _⟩ => ⟨S1x192, .f32⟩
  | .hbm, ⟨93, _⟩ => ⟨S50000x192, .f32⟩
  | .hbm, ⟨94, _⟩ => ⟨S50000x192, .f32⟩
  | .hbm, ⟨95, _⟩ => ⟨S50000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .f32⟩
  | .hbm, ⟨105, _⟩ => ⟨S800000x1, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000x1, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S128x1000, .f32⟩
  | .hbm, ⟨122, _⟩ => ⟨S50000x1000, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x192, .f32⟩
  | .local _ .vmem, ⟨8, _⟩ => ⟨S2000x192, .f32⟩
  | .local _ .vmem, ⟨9, _⟩ => ⟨S2000x192, .f32⟩
  | .local _ .vmem, ⟨10, _⟩ => ⟨S2000x192, .f32⟩
  | .local _ .vmem, ⟨11, _⟩ => ⟨S2000x192, .f32⟩
  | .local _ .vmem, ⟨12, _⟩ => ⟨S192x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x1000, .f32⟩
  | .local _ .vmem, ⟨30, _⟩ => ⟨S2000x1000, .f32⟩
  | .local _ .vmem, ⟨31, _⟩ => ⟨S2000x1000, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_11 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x192_S256x192_0_0 : ∀ a, (![0, 0] : Fin 2 → Nat) a + S256x192.size a ≤ S256x192.size a
  h_S256x192 : 0 < S256x192.numel
  inb_S2000x192_S2000x192_0_0 : ∀ a, (![0, 0] : Fin 2 → Nat) a + S2000x192.size a ≤ S2000x192.size a
  h_S2000x192 : 0 < S2000x192.numel
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  bcast_S50000x1_S50000x192_0_1 : S50000x1.BroadcastsInDim S50000x192 (![0, 1] : Fin 2 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  shapeCasts_S2000x192_S2000x192 : S2000x192.ShapeCasts S2000x192
  inb_S192x128_S192x128_0_0 : ∀ a, (![0, 0] : Fin 2 → Nat) a + S192x128.size a ≤ S192x128.size a
  h_S192x128 : 0 < S192x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  transposes_S1000x128_S128x1000_1_0 : S1000x128.Transposes [1, 0] S128x1000
  inb_S128x1000_S128x1000_0_0 : ∀ a, (![0, 0] : Fin 2 → Nat) a + S128x1000.size a ≤ S128x1000.size a
  h_S128x1000 : 0 < S128x1000.numel
  shapeCasts_S128x1000_S128x1000 : S128x1000.ShapeCasts S128x1000
  inb_S2000x1000_S2000x1000_0_0 : ∀ a, (![0, 0] : Fin 2 → Nat) a + S2000x1000.size a ≤ S2000x1000.size a
  h_S2000x1000 : 0 < S2000x1000.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x192_S2000x192_1_0_0_1_n_n_wf : DotDims.WF S2000x256 S256x192 S2000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x192_S192x128_S2000x128_1_0_0_1_n_n_wf : DotDims.WF S2000x192 S192x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1000_S2000x1000_1_0_0_1_n_n_wf : DotDims.WF S2000x128 S128x1000 S2000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x192.size a ≤ S256x192.size a
  hwx1_1 : ∀ i : grid1.Coords, EltTy.bits .f32 = 32 ∨ (Rect.block (s := S256x192) S256x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x192.size a ≤ S50000x192.size a
  hwx1_2 : ∀ i : grid1.Coords, EltTy.bits .f32 = 32 ∨ (Rect.block (s := S50000x192) S2000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S50000x192.size a
  hwx2_0 : ∀ i : grid2.Coords, EltTy.bits .f32 = 32 ∨ (Rect.block (s := S50000x192) S2000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x128.size a ≤ S192x128.size a
  hwx2_1 : ∀ i : grid2.Coords, EltTy.bits .f32 = 32 ∨ (Rect.block (s := S192x128) S192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1000.size a ≤ S128x1000.size a
  hwx5_1 : ∀ i : grid5.Coords, EltTy.bits .f32 = 32 ∨ (Rect.block (s := S128x1000) S128x1000.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1000.size a ≤ S50000x1000.size a
  hwx5_2 : ∀ i : grid5.Coords, EltTy.bits .f32 = 32 ∨ (Rect.block (s := S50000x1000) S2000x1000.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x192_S2000x192_1_0_0_1_n_n : DotDims S2000x256 S256x192 S2000x192 where
  lhsContracting := [1]
  rhsContracting := [0]
  lhsNonContracting := [0]
  rhsNonContracting := [1]
  lhsBatch := []
  rhsBatch := []
  wf := dot_S2000x256_S256x192_S2000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1000_S2000x1000_1_0_0_1_n_n : DotDims S2000x128 S128x1000 S2000x1000 where
  lhsContracting := [1]
  rhsContracting := [0]
  lhsNonContracting := [0]
  rhsNonContracting := [1]
  lhsBatch := []
  rhsBatch := []
  wf := dot_S2000x128_S128x1000_S2000x1000_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v90) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S128x1000.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S2000x1000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S1000x128 : Shape := ⟨2, ![1000, 128]⟩
abbrev S512x256 : Shape := ⟨2, ![512, 256]⟩
abbrev S256 : Shape := ⟨1, ![256]⟩
abbrev S256x192 : Shape := ⟨2, ![256, 192]⟩
abbrev S192 : Shape := ⟨1, ![192]⟩
abbrev S192x128 : Shape := ⟨2, ![192, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x192 : Shape := ⟨2, ![50000, 192]⟩
abbrev S800000x192 : Shape := ⟨2, ![800000, 192]⟩
abbrev S1x192 : Shape := ⟨2, ![1, 192]⟩
abbrev S50000x128 : Shape := ⟨2, ![50000, 128]⟩
abbrev S800000x128 : Shape := ⟨2, ![800000, 128]⟩
abbrev S1x128 : Shape := ⟨2, ![1, 128]⟩
abbrev S128x1000 : Shape := ⟨2, ![128, 1000]⟩
abbrev S50000x1000 : Shape := ⟨2, ![50000, 1000]⟩

abbrev nBuf : Space → Nat
  | .hbm => 192
  | .vmem => 0
  | .smem => 0
  | _ => 0

abbrev hbmTy0_0 (i : Nat) : BufTy := match i % 128 with
  | 0 => ⟨S50000x512, .f32⟩
  | 1 => ⟨S2x800000, .i32⟩
  | 2 => ⟨S1000x128, .f32⟩
  | 3 => ⟨S512x256, .f32⟩
  | 4 => ⟨S256, .f32⟩
  | 5 => ⟨S256x192, .f32⟩
  | 6 => ⟨S192, .f32⟩
  | 7 => ⟨S192x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000x256, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S800000x1, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S50000x192, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x192, .f32⟩
  | 110 => ⟨S800000x1, .f32⟩
  | 111 => ⟨S800000x192, .f32⟩
  | 112 => ⟨S800000x192, .f32⟩
  | 113 => ⟨S_, .f32⟩
  | 114 => ⟨S50000x192, .f32⟩
  | 115 => ⟨S800000x1, .i32⟩
  | 116 => ⟨S50000x192, .f32⟩
  | 117 => ⟨S50000, .f32⟩
  | 118 => ⟨S50000x1, .f32⟩
  | 119 => ⟨S50000x192, .f32⟩
  | 120 => ⟨S50000x192, .f32⟩
  | 121 => ⟨S50000x192, .f32⟩
  | 122 => ⟨S1x192, .f32⟩
  | 123 => ⟨S50000x192, .f32⟩
  | 124 => ⟨S50000x192, .f32⟩
  | 125 => ⟨S50000x128, .f32⟩
  | 126 => ⟨S_, .f32⟩
  | 127 => ⟨S800000, .f32⟩
  | _ => ⟨S50000x512, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S50000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S800000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x1, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S128x1000, .f32⟩
  | 63 => ⟨S50000x1000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_21 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_23 : Ref sig .tc := ⟨.hbm, 145, rfl⟩
abbrev main_v107 : Ref sig .tc := ⟨.hbm, 146, rfl⟩
abbrev main_v108 : Ref sig .tc := ⟨.hbm, 147, rfl⟩
abbrev main_c_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_25 : Ref sig .tc := ⟨.hbm, 155, rfl⟩
abbrev main_v115 : Ref sig .tc := ⟨.hbm, 156, rfl⟩
abbrev main_v116 : Ref sig .tc := ⟨.hbm, 157, rfl⟩
abbrev main_c_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_27 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_call0_cst : Ref sig .tc := ⟨.hbm, 183, rfl⟩
abbrev main_call0_v0 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  bcast_S50000x1_S50000x192_0_1 : S50000x1.BroadcastsInDim S50000x192 (![0, 1] : Fin 2 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S1000x128_S128x1000_1_0 : S1000x128.Transposes [1, 0] S128x1000
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x192_S50000x192_1_0_0_1_n_n_wf : DotDims.WF S50000x256 S256x192 S50000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1000_S50000x1000_1_0_0_1_n_n_wf : DotDims.WF S50000x128 S128x1000 S50000x1000 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x192_S50000x192_1_0_0_1_n_n : DotDims S50000x256 S256x192 S50000x192 where
  lhsContracting := [1]
  rhsContracting := [0]
  lhsNonContracting := [0]
  rhsNonContracting := [1]
  lhsBatch := []
  rhsBatch := []
  wf := dot_S50000x256_S256x192_S50000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1000_S50000x1000_1_0_0_1_n_n : DotDims S50000x128 S128x1000 S50000x1000 where
  lhsContracting := [1]
  rhsContracting := [0]
  lhsNonContracting := [0]
  rhsNonContracting := [1]
  lhsBatch := []
  rhsBatch := []
  wf := dot_S50000x128_S128x1000_S50000x1000_1_0_0_1_n_n_wf

class Facts : Prop extends Facts₀ where

variable [Facts]
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibBlockProd.lean ====
/-
  Row blocks of a matrix product, on the extended reals.

  matProd M K N a b is the product of an M×K and a K×N array, entry (p, q) being ∑ k, a[p, k] · b[k, q].
  The host's dot_general with the dimension numbers of a plain product is this array; and when a T×K
  array x holds rows of a (row p of x is row r p of a), the matmul of x with b into the zero splat holds,
  at (p, q), entry (r p, q) of the product: a product may be computed a block of rows at a time.
-/
import Idealize.ShloMosaic.Lib.ValueIdx
import Idealize.ShloMosaic.PureOps.Ideal.Laws
import proofs.«147575_j61632780698356_1_alg».proof.Proof.LibPlainDot

noncomputable section

open scoped BigOperators

namespace Idealize.ShloMosaic.BlockProd

open Idealize.ShloMosaic Idealize.ShloMosaic.ValueIdx

/-- The product of an M×K and a K×N array of extended reals. -/
def matProd (M K N : Nat) (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem matProd_apply (M K N : Nat) (a : (⟨2, ![M, K]⟩ : Shape).Idx → EReal) (b : (⟨2, ![K, N]⟩ : Shape).Idx → EReal)
    (p : Fin M) (q : Fin N) : matProd M K N a b (ix2 p q) = ∑ k : Fin K, a (ix2 p k) * b (ix2 k q) := rfl

/-- The host's dot_general of a plain product is the product. -/
theorem dotGeneral_eq (M K N : Nat) {φ₁ φ₂ : FTy} (prec : Option ContractPrecision) (sched : HostSchedule)
    (a : FVec Ideal ⟨2, ![M, K]⟩ φ₁) (b : FVec Ideal ⟨2, ![K, N]⟩ φ₂) :
    FloatOps.dotGeneral (DotDims.plain M K N) prec sched a b = matProd M K N a b := by
  funext i
  obtain ⟨p, q, rfl⟩ : ∃ (p : Fin M) (q : Fin N), i = ix2 p q := ⟨i 0, i 1, eq_ix2 i⟩
  exact PlainDot.dotGeneral_apply M K N prec sched a b p q

/-- A block of rows: if row p of x is row r p of a and y is b, the matmul of x and y into the zero splat
    is, at (p, q), entry (r p, q) of the product of a and b. -/
theorem matmul_rows (M K N T : Nat) {φ₁ φ₂ : FTy} (prec : Option ContractPrecision)
    (x : FVec Ideal ⟨2, ![T, K]⟩ φ₁) (y : FVec Ideal ⟨2, ![K, N]⟩ φ₂)
    (a : (⟨2, ![M, K]⟩ : Shape).Idx → EReal) (b : (⟨2, ![K, N]⟩ : Shape).Idx → EReal) (r : Fin T → Fin M)
    (hx : ∀ (p : Fin T) (k : Fin K), x (ix2 p k) = a (ix2 (r p) k))
    (hy : ∀ (k : Fin K) (q : Fin N), y (ix2 k q) = b (ix2 k q)) (p : Fin T) (q : Fin N) :
    FloatOps.matmul (DotDims.plain T K N) prec x y (constant ⟨2, ![T, N]⟩ .f32 0x00000000#32) (ix2 p q)
      = matProd M K N a b (ix2 (r p) q) := by
  rw [PlainDot.matmul_zero_apply, matProd_apply]
  exact Finset.sum_congr rfl fun k _ => by rw [hx, hy]

end Idealize.ShloMosaic.BlockProd

end
-- ==== Proof.Region0.lean ====
/-
  The array region 0 leaves: a product computed a block of 2000 rows at a time.

  At grid point t the body multiplies rows 2000·t … 2000·t + 1999 of the left array by the whole right
  array, and writes the block back to the same rows of the output. Entry (i, j) of the output
  therefore ends as ∑ k, a[i, k] · b[k, j]: the 25 blocks cover all 50000 rows.
-/
import proofs.«147575_j61632780698356_1_alg».proof.Proof.Gen.KernelIdeal.Frame
import proofs.«147575_j61632780698356_1_alg».proof.Proof.LibBlockProd
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the output move a block of rows per point,
    the right array stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at an entry: when x0 holds the rows off … off + 1999 of a, x1 is b,
    entry j of the result is entry i of the whole product, i being j moved down off rows. -/
theorem pay_at (x0 : Vec Ideal S2000x512 .f32) (x1 : Vec Ideal S512x256 .f32)
    (a : S50000x512.Idx → EReal) (b : S512x256.Idx → EReal) (off : Nat) (hoff : off + 2000 ≤ 50000)
    (hx : ∀ (y : S2000x512.Idx) (i : S50000x512.Idx), (i 0).val = off + (y 0).val → (i 1).val = (y 1).val → x0 y = a i)
    (hy : ∀ y : S512x256.Idx, x1 y = b y)
    (j : S2000x256.Idx) (i : S50000x256.Idx) (hi0 : (i 0).val = off + (j 0).val) (hi1 : (i 1).val = (j 1).val) :
    k0_pay1 (F := Ideal) x0 x1 j = matProd 50000 512 256 a b i := by
  obtain ⟨p, q, rfl⟩ : ∃ (p : Fin 2000) (q : Fin 256), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k0_pay1
  exact matmul_rows 50000 512 256 2000 none _ _ a b (fun p => ⟨off + p.val, by omega⟩)
    (fun p k => hx (ix2 p k) (ix2 _ k) rfl rfl) (fun k q => hy (ix2 k q)) p q

/-- What point t writes back is block t of the whole result. -/
theorem flushed_eq (c : Dev nD) (t : Fin cfg0.N) :
    (dat0 V c).flushed 2 t = ((cfg0.win 2).blk t).view.read (Elt Ideal)
      (matProd 50000 512 256 (V c main_arg0) (V c main_arg3) : S50000x256.Idx → EReal) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  have ht : t.val < 25 := lt_of_lt_of_eq t.isLt N_0
  funext j
  refine pay_at (iblk0 V c 0 t) (iblk0 V c 1 t) _ _ (t.val * 2000) (by omega) ?_ ?_ j _ ?_ ?_
  · intro y i h0 h1
    show V c main_arg0 (((cfg0.win 0).blk t).view.emb y) = V c main_arg0 i
    congr 1
    funext d
    apply Fin.ext
    match d with
    | ⟨0, _⟩ => show win0_0.index t (0 : Fin 2) * 2000 + 1 * (y 0).val = (i 0).val; rw [e0, h0]; omega
    | ⟨1, _⟩ => show win0_0.index t (1 : Fin 2) * 512 + 1 * (y 1).val = (i 1).val; rw [e1, h1]; omega
  · intro y
    show V c main_arg3 (((cfg0.win 1).blk t).view.emb y) = V c main_arg3 y
    congr 1
    funext d
    apply Fin.ext
    match d with
    | ⟨0, _⟩ => show win0_1.index t (0 : Fin 2) * 512 + 1 * (y 0).val = (y 0).val; rw [e2]; omega
    | ⟨1, _⟩ => show win0_1.index t (1 : Fin 2) * 256 + 1 * (y 1).val = (y 1).val; rw [e3]; omega
  · show win0_2.index t (0 : Fin 2) * 2000 + 1 * (j 0).val = t.val * 2000 + (j 0).val; rw [e4]; omega
  · show win0_2.index t (1 : Fin 2) * 256 + 1 * (j 1).val = (j 1).val; rw [e5]; omega

/-- An index of the output is in point t's block iff each coordinate is in the block's range. -/
theorem mem_blk (t : Fin cfg0.N) (i : S50000x256.Idx) :
    i ∈ ((cfg0.win 2).blk t).view.set ↔ ∀ d : Fin 2, win0_2.index t d * S2000x256.size d ≤ (i d).val ∧ (i d).val < win0_2.index t d * S2000x256.size d + S2000x256.size d := by
  show i ∈ ((View.whole main_v27).slice (win0_2.rect t)).set ↔ _
  rw [View.set_slice_whole, Rect.mem_set_unit]
  exact Iff.rfl

/-- Every row is in the block of the point its number divided by 2000 names. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_2 _, ?_⟩
  obtain ⟨e0, e1, e2, e3, e4, e5⟩ := idx_facts ⟨(i 0).val / 2000, by rw [hN]; omega⟩
  rw [mem_blk]
  intro d
  match d with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 256 ≤ (i 1).val ∧ (i 1).val < win0_2.index _ (1 : Fin 2) * 256 + 256; rw [e5]; omega

/-- The output array after the region: the whole result of the arrays the region was entered with. -/
theorem final (c : Dev nD) : (dat0 V c).arrAt 2 cfg0.N = (matProd 50000 512 256 (V c main_arg0) (V c main_arg3) : S50000x256.Idx → EReal) :=
  (dat0 V c).arrAt_eq_of_cover 2 _ (fun t _ => flushed_eq V c t) cover

end Cert.KernelIdeal.Region0

end
-- ==== Proof.Region1.lean ====
/-
  The array region 1 leaves: a product computed a block of 2000 rows at a time.

  At grid point t the body multiplies rows 2000·t … 2000·t + 1999 of the left array by the whole right
  array, and writes the block back to the same rows of the output. Entry (i, j) of the output
  therefore ends as ∑ k, a[i, k] · b[k, j]: the 25 blocks cover all 50000 rows.
-/
import proofs.«147575_j61632780698356_1_alg».proof.Proof.Gen.KernelIdeal.Frame
import proofs.«147575_j61632780698356_1_alg».proof.Proof.LibBlockProd
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the output move a block of rows per point,
    the right array stays whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at an entry: when x0 holds the rows off … off + 1999 of a, x1 is b,
    entry j of the result is entry i of the whole product, i being j moved down off rows. -/
theorem pay_at (x0 : Vec Ideal S2000x256 .f32) (x1 : Vec Ideal S256x192 .f32)
    (a : S50000x256.Idx → EReal) (b : S256x192.Idx → EReal) (off : Nat) (hoff : off + 2000 ≤ 50000)
    (hx : ∀ (y : S2000x256.Idx) (i : S50000x256.Idx), (i 0).val = off + (y 0).val → (i 1).val = (y 1).val → x0 y = a i)
    (hy : ∀ y : S256x192.Idx, x1 y = b y)
    (j : S2000x192.Idx) (i : S50000x192.Idx) (hi0 : (i 0).val = off + (j 0).val) (hi1 : (i 1).val = (j 1).val) :
    k1_pay1 (F := Ideal) x0 x1 j = matProd 50000 256 192 a b i := by
  obtain ⟨p, q, rfl⟩ : ∃ (p : Fin 2000) (q : Fin 192), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k1_pay1
  exact matmul_rows 50000 256 192 2000 none (truncf .bf16 (shapeCast S2000x256 x0 shapeCasts_S2000x256_S2000x256) bitsLt_bf16_f32)
    (truncf .bf16 x1 bitsLt_bf16_f32) a b (fun p => ⟨off + p.val, by omega⟩)
    (fun p k => (congrFun (shapeCast_self x0 shapeCasts_S2000x256_S2000x256) (ix2 p k)).trans (hx (ix2 p k) (ix2 _ k) rfl rfl)) (fun k q => hy (ix2 k q)) p q

/-- What point t writes back is block t of the whole result. -/
theorem flushed_eq (c : Dev nD) (t : Fin cfg1.N) :
    (dat1 V c).flushed 2 t = ((cfg1.win 2).blk t).view.read (Elt Ideal)
      (matProd 50000 256 192 (V c main_v47) (V c main_arg5) : S50000x192.Idx → EReal) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x192) hz]
  obtain ⟨e0, e1, e2, e3, e4, e5⟩ := idx_facts t
  have ht : t.val < 25 := lt_of_lt_of_eq t.isLt N_1
  funext j
  refine pay_at (iblk1 V c 0 t) (iblk1 V c 1 t) _ _ (t.val * 2000) (by omega) ?_ ?_ j _ ?_ ?_
  · intro y i h0 h1
    show V c main_v47 (((cfg1.win 0).blk t).view.emb y) = V c main_v47 i
    congr 1
    funext d
    apply Fin.ext
    match d with
    | ⟨0, _⟩ => show win1_0.index t (0 : Fin 2) * 2000 + 1 * (y 0).val = (i 0).val; rw [e0, h0]; omega
    | ⟨1, _⟩ => show win1_0.index t (1 : Fin 2) * 256 + 1 * (y 1).val = (i 1).val; rw [e1, h1]; omega
  · intro y
    show V c main_arg5 (((cfg1.win 1).blk t).view.emb y) = V c main_arg5 y
    congr 1
    funext d
    apply Fin.ext
    match d with
    | ⟨0, _⟩ => show win1_1.index t (0 : Fin 2) * 256 + 1 * (y 0).val = (y 0).val; rw [e2]; omega
    | ⟨1, _⟩ => show win1_1.index t (1 : Fin 2) * 192 + 1 * (y 1).val = (y 1).val; rw [e3]; omega
  · show win1_2.index t (0 : Fin 2) * 2000 + 1 * (j 0).val = t.val * 2000 + (j 0).val; rw [e4]; omega
  · show win1_2.index t (1 : Fin 2) * 192 + 1 * (j 1).val = (j 1).val; rw [e5]; omega

/-- An index of the output is in point t's block iff each coordinate is in the block's range. -/
theorem mem_blk (t : Fin cfg1.N) (i : S50000x192.Idx) :
    i ∈ ((cfg1.win 2).blk t).view.set ↔ ∀ d : Fin 2, win1_2.index t d * S2000x192.size d ≤ (i d).val ∧ (i d).val < win1_2.index t d * S2000x192.size d + S2000x192.size d := by
  show i ∈ ((View.whole main_v48).slice (win1_2.rect t)).set ↔ _
  rw [View.set_slice_whole, Rect.mem_set_unit]
  exact Iff.rfl

/-- Every row is in the block of the point its number divided by 2000 names. -/
theorem cover (i : S50000x192.Idx) : ∃ t : Fin cfg1.N, (cfg1.win 2).flush t = true ∧ i ∈ ((cfg1.win 2).blk t).view.set := by
  have hi0 : (i 0).val < 50000 := (i 0).isLt
  have hi1 : (i 1).val < 192 := (i 1).isLt
  have hN : cfg1.N = 25 := N_1
  refine ⟨⟨(i 0).val / 2000, by rw [hN]; omega⟩, flush1_2 _, ?_⟩
  obtain ⟨e0, e1, e2, e3, e4, e5⟩ := idx_facts ⟨(i 0).val / 2000, by rw [hN]; omega⟩
  rw [mem_blk]
  intro d
  match d with
  | ⟨0, _⟩ => show win1_2.index _ (0 : Fin 2) * 2000 ≤ (i 0).val ∧ (i 0).val < win1_2.index _ (0 : Fin 2) * 2000 + 2000; rw [e4]; show (i 0).val / 2000 * 2000 ≤ _ ∧ _ < (i 0).val / 2000 * 2000 + 2000; omega
  | ⟨1, _⟩ => show win1_2.index _ (1 : Fin 2) * 192 ≤ (i 1).val ∧ (i 1).val < win1_2.index _ (1 : Fin 2) * 192 + 192; rw [e5]; omega

/-- The output array after the region: the whole result of the arrays the region was entered with. -/
theorem final (c : Dev nD) : (dat1 V c).arrAt 2 cfg1.N = (matProd 50000 256 192 (V c main_v47) (V c main_arg5) : S50000x192.Idx → EReal) :=
  (dat1 V c).arrAt_eq_of_cover 2 _ (fun t _ => flushed_eq V c t) cover

end Cert.KernelIdeal.Region1

end
-- ==== Proof.Region2.lean ====
/-
  The array region 2 leaves: a product computed a block of 2000 rows at a time.

  At grid point t the body multiplies rows 2000·t … 2000·t + 1999 of the left array by the whole right
  array, and writes the block back to the same rows of the output. Entry (i, j) of the output
  therefore ends as ∑ k, a[i, k] · b[k, j]: the 25 blocks cover all 50000 rows.
-/
import proofs.«147575_j61632780698356_1_alg».proof.Proof.Gen.KernelIdeal.Frame
import proofs.«147575_j61632780698356_1_alg».proof.Proof.LibBlockProd
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the output move a block of rows per point,
    the right array stays whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's result at an entry: when x0 holds the rows off … off + 1999 of a, x1 is b,
    entry j of the result is entry i of the whole product, i being j moved down off rows. -/
theorem pay_at (x0 : Vec Ideal S2000x192 .f32) (x1 : Vec Ideal S192x128 .f32)
    (a : S50000x192.Idx → EReal) (b : S192x128.Idx → EReal) (off : Nat) (hoff : off + 2000 ≤ 50000)
    (hx : ∀ (y : S2000x192.Idx) (i : S50000x192.Idx), (i 0).val = off + (y 0).val → (i 1).val = (y 1).val → x0 y = a i)
    (hy : ∀ y : S192x128.Idx, x1 y = b y)
    (j : S2000x128.Idx) (i : S50000x128.Idx) (hi0 : (i 0).val = off + (j 0).val) (hi1 : (i 1).val = (j 1).val) :
    k2_pay1 (F := Ideal) x0 x1 j = matProd 50000 192 128 a b i := by
  obtain ⟨p, q, rfl⟩ : ∃ (p : Fin 2000) (q : Fin 128), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k2_pay1
  exact matmul_rows 50000 192 128 2000 none (truncf .bf16 (shapeCast S2000x192 x0 shapeCasts_S2000x192_S2000x192) bitsLt_bf16_f32)
    (truncf .bf16 x1 bitsLt_bf16_f32) a b (fun p => ⟨off + p.val, by omega⟩)
    (fun p k => (congrFun (shapeCast_self x0 shapeCasts_S2000x192_S2000x192) (ix2 p k)).trans (hx (ix2 p k) (ix2 _ k) rfl rfl)) (fun k q => hy (ix2 k q)) p q

/-- What point t writes back is block t of the whole result. -/
theorem flushed_eq (c : Dev nD) (t : Fin cfg2.N) :
    (dat2 V c).flushed 2 t = ((cfg2.win 2).blk t).view.read (Elt Ideal)
      (matProd 50000 192 128 (V c main_v68) (V c main_arg7) : S50000x128.Idx → EReal) := by
  show (cfg2.win 2).cut (grid2.coords t) ((dat2 V c).after 2 t) = _
  rw [after2_2]
  unfold out2_2
  rw [View.canon_unit_zero hz]
  simp only [View.ld_unit_zero (S := S2000x192) hz, View.ld_unit_zero (S := S192x128) hz]
  obtain ⟨e0, e1, e2, e3, e4, e5⟩ := idx_facts t
  have ht : t.val < 25 := lt_of_lt_of_eq t.isLt N_2
  funext j
  refine pay_at (iblk2 V c 0 t) (iblk2 V c 1 t) _ _ (t.val * 2000) (by omega) ?_ ?_ j _ ?_ ?_
  · intro y i h0 h1
    show V c main_v68 (((cfg2.win 0).blk t).view.emb y) = V c main_v68 i
    congr 1
    funext d
    apply Fin.ext
    match d with
    | ⟨0, _⟩ => show win2_0.index t (0 : Fin 2) * 2000 + 1 * (y 0).val = (i 0).val; rw [e0, h0]; omega
    | ⟨1, _⟩ => show win2_0.index t (1 : Fin 2) * 192 + 1 * (y 1).val = (i 1).val; rw [e1, h1]; omega
  · intro y
    show V c main_arg7 (((cfg2.win 1).blk t).view.emb y) = V c main_arg7 y
    congr 1
    funext d
    apply Fin.ext
    match d with
    | ⟨0, _⟩ => show win2_1.index t (0 : Fin 2) * 192 + 1 * (y 0).val = (y 0).val; rw [e2]; omega
    | ⟨1, _⟩ => show win2_1.index t (1 : Fin 2) * 128 + 1 * (y 1).val = (y 1).val; rw [e3]; omega
  · show win2_2.index t (0 : Fin 2) * 2000 + 1 * (j 0).val = t.val * 2000 + (j 0).val; rw [e4]; omega
  · show win2_2.index t (1 : Fin 2) * 128 + 1 * (j 1).val = (j 1).val; rw [e5]; omega

/-- An index of the output is in point t's block iff each coordinate is in the block's range. -/
theorem mem_blk (t : Fin cfg2.N) (i : S50000x128.Idx) :
    i ∈ ((cfg2.win 2).blk t).view.set ↔ ∀ d : Fin 2, win2_2.index t d * S2000x128.size d ≤ (i d).val ∧ (i d).val < win2_2.index t d * S2000x128.size d + S2000x128.size d := by
  show i ∈ ((View.whole main_v69).slice (win2_2.rect t)).set ↔ _
  rw [View.set_slice_whole, Rect.mem_set_unit]
  exact Iff.rfl

/-- Every row is in the block of the point its number divided by 2000 names. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  obtain ⟨e0, e1, e2, e3, e4, e5⟩ := idx_facts ⟨(i 0).val / 2000, by rw [hN]; omega⟩
  rw [mem_blk]
  intro d
  match d with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 128 ≤ (i 1).val ∧ (i 1).val < win2_2.index _ (1 : Fin 2) * 128 + 128; rw [e5]; omega

/-- The output array after the region: the whole result of the arrays the region was entered with. -/
theorem final (c : Dev nD) : (dat2 V c).arrAt 2 cfg2.N = (matProd 50000 192 128 (V c main_v68) (V c main_arg7) : S50000x128.Idx → EReal) :=
  (dat2 V c).arrAt_eq_of_cover 2 _ (fun t _ => flushed_eq V c t) cover

end Cert.KernelIdeal.Region2

end
-- ==== Proof.LibAttLayout.lean ====
/-
  The re-layings this kernel's body makes, each read at an index.

  The body flattens the batch and item axes into rows: row (b·20 + i) of a [1280, 64] matrix is item i of batch
  entry b, row ((b·20 + i)·20 + j) of a [25600, 64] matrix is the pair (i, j) of batch entry b. A shape cast keeps
  the row-major position, so it reads the operand at the index with the same position; the broadcasts read the
  operand with the stretched coordinate at 0; a row vector spread over all rows reads its one row.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttLayout

open Idealize.ShloMosaic Idealize.ShloMosaic.ValueIdx

variable {α : Type}

/-- A [B, N, D] array cast to [B·N, D] reads, at row b·N + i, the operand at (b, i). -/
theorem cast_3_2 {B N D R : ℕ} (x : (⟨3, ![B, N, D]⟩ : Shape).Idx → α)
    (h : (⟨3, ![B, N, D]⟩ : Shape).ShapeCasts ⟨2, ![R, D]⟩) (b : Fin B) (i : Fin N) (d : Fin D) (r : Fin R)
    (hr : r.val = b.val * N + i.val) :
    shapeCast ⟨2, ![R, D]⟩ x h (ix2 r d) = x (ix3 b i d) :=
  shapeCast_apply x h _ _ (by
    rw [Shape.rowMajor_val_three, Shape.rowMajor_val_two]
    show (b.val * N + i.val) * D + d.val = r.val * D + d.val
    rw [hr])

/-- A [B·N, D] matrix cast to [B, N, D] reads, at (b, i), the operand's row b·N + i. -/
theorem cast_2_3 {B N D R : ℕ} (x : (⟨2, ![R, D]⟩ : Shape).Idx → α)
    (h : (⟨2, ![R, D]⟩ : Shape).ShapeCasts ⟨3, ![B, N, D]⟩) (b : Fin B) (i : Fin N) (d : Fin D) (r : Fin R)
    (hr : r.val = b.val * N + i.val) :
    shapeCast ⟨3, ![B, N, D]⟩ x h (ix3 b i d) = x (ix2 r d) :=
  shapeCast_apply x h _ _ (by
    rw [Shape.rowMajor_val_three, Shape.rowMajor_val_two]
    show r.val * D + d.val = (b.val * N + i.val) * D + d.val
    rw [hr])

/-- A vector of length B·N·M cast to [B, N, M] reads, at (b, i, j), the operand at position (b·N + i)·M + j. -/
theorem cast_1_3 {B N M R : ℕ} (x : (⟨1, ![R]⟩ : Shape).Idx → α)
    (h : (⟨1, ![R]⟩ : Shape).ShapeCasts ⟨3, ![B, N, M]⟩) (b : Fin B) (i : Fin N) (j : Fin M) (r : Fin R)
    (hr : r.val = (b.val * N + i.val) * M + j.val) :
    shapeCast ⟨3, ![B, N, M]⟩ x h (ix3 b i j) = x (ix1 r) :=
  shapeCast_apply x h _ _ (by
    rw [Shape.rowMajor_val_three, Shape.rowMajor_val_one]
    show r.val = (b.val * N + i.val) * M + j.val
    exact hr)

/-- A [B, N, M, D] array cast to [B·N·M, D] reads, at row (b·N + i)·M + j, the operand at (b, i, j). -/
theorem cast_4_2 {B N M D R : ℕ} (x : (⟨4, ![B, N, M, D]⟩ : Shape).Idx → α)
    (h : (⟨4, ![B, N, M, D]⟩ : Shape).ShapeCasts ⟨2, ![R, D]⟩) (b : Fin B) (i : Fin N) (j : Fin M) (d : Fin D) (r : Fin R)
    (hr : r.val = (b.val * N + i.val) * M + j.val) :
    shapeCast ⟨2, ![R, D]⟩ x h (ix2 r d) = x (ix4 b i j d) :=
  shapeCast_apply x h _ _ (by
    rw [Shape.rowMajor_val_four, Shape.rowMajor_val_two]
    show ((b.val * N + i.val) * M + j.val) * D + d.val = r.val * D + d.val
    rw [hr])

/-- A [B, N, D] array cast to [B, N, 1, D] reads, at (b, i, u, d), the operand at (b, i, d). -/
theorem cast_3_4_mid {B N D : ℕ} (x : (⟨3, ![B, N, D]⟩ : Shape).Idx → α)
    (h : (⟨3, ![B, N, D]⟩ : Shape).ShapeCasts ⟨4, ![B, N, 1, D]⟩) (b : Fin B) (i : Fin N) (u : Fin 1) (d : Fin D) :
    shapeCast ⟨4, ![B, N, 1, D]⟩ x h (ix4 b i u d) = x (ix3 b i d) :=
  shapeCast_apply x h _ _ (by
    have hu : u.val = 0 := by omega
    rw [Shape.rowMajor_val_four, Shape.rowMajor_val_three]
    show (b.val * N + i.val) * D + d.val = ((b.val * N + i.val) * 1 + u.val) * D + d.val
    rw [hu, Nat.mul_one, Nat.add_zero])

/-- A [B, N, D] array cast to [B, 1, N, D] reads, at (b, u, j, d), the operand at (b, j, d). -/
theorem cast_3_4_front {B N D : ℕ} (x : (⟨3, ![B, N, D]⟩ : Shape).Idx → α)
    (h : (⟨3, ![B, N, D]⟩ : Shape).ShapeCasts ⟨4, ![B, 1, N, D]⟩) (b : Fin B) (u : Fin 1) (j : Fin N) (d : Fin D) :
    shapeCast ⟨4, ![B, 1, N, D]⟩ x h (ix4 b u j d) = x (ix3 b j d) :=
  shapeCast_apply x h _ _ (by
    have hu : u.val = 0 := by omega
    rw [Shape.rowMajor_val_four, Shape.rowMajor_val_three]
    show (b.val * N + j.val) * D + d.val = ((b.val * 1 + u.val) * N + j.val) * D + d.val
    rw [hu, Nat.mul_one, Nat.add_zero])

/-- A [B, N, 1, D] array spread to [B, N, M, D] reads, at (b, i, j, d), the operand at (b, i, 0, d). -/
theorem spread_4_mid {B N M D : ℕ} (x : (⟨4, ![B, N, 1, D]⟩ : Shape).Idx → α)
    (h : (⟨4, ![B, N, 1, D]⟩ : Shape).Broadcasts ⟨4, ![B, N, M, D]⟩) (b : Fin B) (i : Fin N) (j : Fin M) (d : Fin D) :
    broadcastTo ⟨4, ![B, N, M, D]⟩ x h (ix4 b i j d) = x (ix4 b i (0 : Fin 1) d) := by
  refine broadcastTo_apply x h (ix4 b i j d) (ix4 b i (0 : Fin 1) d) fun ax => ?_
  match ax with
  | ⟨0, _⟩ =>
    show b.val = if B = 1 then 0 else b.val
    split
    · have := b.isLt; omega
    · rfl
  | ⟨1, _⟩ =>
    show i.val = if N = 1 then 0 else i.val
    split
    · have := i.isLt; omega
    · rfl
  | ⟨2, _⟩ => rfl
  | ⟨3, _⟩ =>
    show d.val = if D = 1 then 0 else d.val
    split
    · have := d.isLt; omega
    · rfl

/-- A [B, 1, M, D] array spread to [B, N, M, D] reads, at (b, i, j, d), the operand at (b, 0, j, d). -/
theorem spread_4_front {B N M D : ℕ} (x : (⟨4, ![B, 1, M, D]⟩ : Shape).Idx → α)
    (h : (⟨4, ![B, 1, M, D]⟩ : Shape).Broadcasts ⟨4, ![B, N, M, D]⟩) (b : Fin B) (i : Fin N) (j : Fin M) (d : Fin D) :
    broadcastTo ⟨4, ![B, N, M, D]⟩ x h (ix4 b i j d) = x (ix4 b (0 : Fin 1) j d) := by
  refine broadcastTo_apply x h (ix4 b i j d) (ix4 b (0 : Fin 1) j d) fun ax => ?_
  match ax with
  | ⟨0, _⟩ =>
    show b.val = if B = 1 then 0 else b.val
    split
    · have := b.isLt; omega
    · rfl
  | ⟨1, _⟩ => rfl
  | ⟨2, _⟩ =>
    show j.val = if M = 1 then 0 else j.val
    split
    · have := j.isLt; omega
    · rfl
  | ⟨3, _⟩ =>
    show d.val = if D = 1 then 0 else d.val
    split
    · have := d.isLt; omega
    · rfl

/-- A vector of length D cast to a one-row matrix and spread over R rows reads, at (r, o), the vector at o. -/
theorem row_spread {R D : ℕ} (v : (⟨1, ![D]⟩ : Shape).Idx → α) (hc : (⟨1, ![D]⟩ : Shape).ShapeCasts ⟨2, ![1, D]⟩)
    (hb : (⟨2, ![1, D]⟩ : Shape).Broadcasts ⟨2, ![R, D]⟩) (r : Fin R) (o : Fin D) :
    broadcastTo ⟨2, ![R, D]⟩ (shapeCast ⟨2, ![1, D]⟩ v hc) hb (ix2 r o) = v (ix1 o) :=
  (broadcastTo_1b_ab_apply _ hb r o).trans (shapeCast_a_1a_apply v hc (0 : Fin 1) o)

variable {φ : FTy}

/-- At the ideal values the sum of an [a, b] matrix along its rows is, at i, the sum over k of the entries (i, k). -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the maximum of an [a, b, c] array along its last axis is, at (i, j), the fold of max from the
    accumulator's value over k of the entries (i, j, k). -/
theorem lastMax_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  refine (Ideal.multiReduction_maximumf_single src acc h hφ hacc (ix2 i j)).trans ?_
  refine congrArg (fun f => (Finset.univ : Finset (Fin c)).fold max (Ideal.ofBits φ acc) f)
    (funext fun k => congrArg src (funext fun ax => Fin.ext ?_))
  match ax with
  | ⟨0, _⟩ => rfl
  | ⟨1, _⟩ => rfl
  | ⟨2, _⟩ => rfl

end Cert.AttLayout

end
-- ==== Proof.Spec.lean ====
/-
  The two dense layers that follow the graph convolutions, entry by entry on the extended reals:
  a product plus a bias row, and the same clamped below at zero.
-/
import Idealize.ShloMosaic.Lib.ValueIdx
import Idealize.ShloMosaic.PureOps.Ideal.Laws
import proofs.«147575_j61632780698356_1_alg».proof.Proof.LibBlockProd

noncomputable section

open scoped BigOperators

namespace Cert.Spec

open Idealize.ShloMosaic Idealize.ShloMosaic.ValueIdx Idealize.ShloMosaic.BlockProd

/-- x · w + bias: entry (i, j) is ∑ k, a[i, k] · b[k, j] + bias[j]. -/
def linear (M K N : Nat) (a : (⟨2, ![M, K]⟩ : Shape).Idx → EReal) (b : (⟨2, ![K, N]⟩ : Shape).Idx → EReal)
    (bv : (⟨1, ![N]⟩ : Shape).Idx → EReal) : (⟨2, ![M, N]⟩ : Shape).Idx → EReal :=
  fun i => matProd M K N a b i + bv (ix1 (i 1))

/-- max(x · w + bias, 0), the zero being the f32 word 0. -/
def reluLinear (M K N : Nat) (a : (⟨2, ![M, K]⟩ : Shape).Idx → EReal) (b : (⟨2, ![K, N]⟩ : Shape).Idx → EReal)
    (bv : (⟨1, ![N]⟩ : Shape).Idx → EReal) : (⟨2, ![M, N]⟩ : Shape).Idx → EReal :=
  fun i => max (linear M K N a b bv i) (Ideal.ofBits .f32 0x00000000#32)

end Cert.Spec

end
-- ==== Proof.Region3.lean ====
/-
  The array region 3 leaves: a product computed a block of 2000 rows at a time.

  At grid point t the body multiplies rows 2000·t … 2000·t + 1999 of the left array by the whole right
  array, adds the bias row and clamps at zero, and writes the block back to the same rows of the output. Entry (i, j) of the output
  therefore ends as max(∑ k, a[i, k] · b[k, j] + bias[j], 0): the 25 blocks cover all 50000 rows.
-/
import proofs.«147575_j61632780698356_1_alg».proof.Proof.Gen.KernelIdeal.Frame
import proofs.«147575_j61632780698356_1_alg».proof.Proof.LibBlockProd
import proofs.«147575_j61632780698356_1_alg».proof.Proof.LibAttLayout
import proofs.«147575_j61632780698356_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the left array and the output move a block of rows per point,
    the right array and the bias row stay whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The body's result at an entry: when x0 holds the rows off … off + 1999 of a, x1 is b and x2 the bias row,
    entry j of the result is entry i of the whole product with the bias added and clamped, i being j moved down off rows. -/
theorem pay_at (x0 : Vec Ideal S2000x128 .f32) (x1 : Vec Ideal S128x128 .f32) (x2 : Vec Ideal S128 .f32)
    (a : S50000x128.Idx → EReal) (b : S128x128.Idx → EReal) (bv : S128.Idx → EReal) (off : Nat) (hoff : off + 2000 ≤ 50000)
    (hx : ∀ (y : S2000x128.Idx) (i : S50000x128.Idx), (i 0).val = off + (y 0).val → (i 1).val = (y 1).val → x0 y = a i)
    (hy : ∀ y : S128x128.Idx, x1 y = b y)
    (hz2 : ∀ y : S128.Idx, x2 y = bv y)
    (j : S2000x128.Idx) (i : S50000x128.Idx) (hi0 : (i 0).val = off + (j 0).val) (hi1 : (i 1).val = (j 1).val) :
    k3_pay1 (F := Ideal) x0 x1 x2 j = reluLinear 50000 128 128 a b bv i := by
  obtain ⟨p, q, rfl⟩ : ∃ (p : Fin 2000) (q : Fin 128), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k3_pay1
  have hmm := matmul_rows 50000 128 128 2000 none (truncf .bf16 (shapeCast S2000x128 x0 shapeCasts_S2000x128_S2000x128) bitsLt_bf16_f32)
    (truncf .bf16 x1 bitsLt_bf16_f32) a b (fun p => ⟨off + p.val, by omega⟩)
    (fun p k => (congrFun (shapeCast_self x0 shapeCasts_S2000x128_S2000x128) (ix2 p k)).trans (hx (ix2 p k) (ix2 _ k) rfl rfl)) (fun k q => hy (ix2 k q)) p q
  have hb := Cert.AttLayout.row_spread (R := 2000) x2 shapeCasts_S128_S1x128 broadcasts_S1x128_S2000x128 p q
  show FloatOps.maximumf (FloatOps.addf _ _) _ = _
  rw [hb, hz2]
  exact congrArg (fun z => FloatOps.maximumf (FloatOps.addf z (bv (ix1 q))) _) hmm

/-- What point t writes back is block t of the whole result. -/
theorem flushed_eq (c : Dev nD) (t : Fin cfg3.N) :
    (dat3 V c).flushed 3 t = ((cfg3.win 3).blk t).view.read (Elt Ideal)
      (reluLinear 50000 128 128 (V c main_v89) (V c main_arg9) (V c main_arg10) : S50000x128.Idx → EReal) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz, View.ld_unit_zero (S := S128) hz1]
  obtain ⟨e0, e1, e2, e3, eb, e4, e5⟩ := idx_facts t
  have ht : t.val < 25 := lt_of_lt_of_eq t.isLt N_3
  funext j
  refine pay_at (iblk3 V c 0 t) (iblk3 V c 1 t) (iblk3 V c 2 t) _ _ _ (t.val * 2000) (by omega) ?_ ?_ ?_ j _ ?_ ?_
  · intro y i h0 h1
    show V c main_v89 (((cfg3.win 0).blk t).view.emb y) = V c main_v89 i
    congr 1
    funext d
    apply Fin.ext
    match d with
    | ⟨0, _⟩ => show win3_0.index t (0 : Fin 2) * 2000 + 1 * (y 0).val = (i 0).val; rw [e0, h0]; omega
    | ⟨1, _⟩ => show win3_0.index t (1 : Fin 2) * 128 + 1 * (y 1).val = (i 1).val; rw [e1, h1]; omega
  · intro y
    show V c main_arg9 (((cfg3.win 1).blk t).view.emb y) = V c main_arg9 y
    congr 1
    funext d
    apply Fin.ext
    match d with
    | ⟨0, _⟩ => show win3_1.index t (0 : Fin 2) * 128 + 1 * (y 0).val = (y 0).val; rw [e2]; omega
    | ⟨1, _⟩ => show win3_1.index t (1 : Fin 2) * 128 + 1 * (y 1).val = (y 1).val; rw [e3]; omega
  · intro y
    show V c main_arg10 (((cfg3.win 2).blk t).view.emb y) = V c main_arg10 y
    congr 1
    funext d
    apply Fin.ext
    match d with
    | ⟨0, _⟩ => show win3_2.index t (0 : Fin 1) * 128 + 1 * (y 0).val = (y 0).val; rw [eb]; omega
  · show win3_3.index t (0 : Fin 2) * 2000 + 1 * (j 0).val = t.val * 2000 + (j 0).val; rw [e4]; omega
  · show win3_3.index t (1 : Fin 2) * 128 + 1 * (j 1).val = (j 1).val; rw [e5]; omega

/-- An index of the output is in point t's block iff each coordinate is in the block's range. -/
theorem mem_blk (t : Fin cfg3.N) (i : S50000x128.Idx) :
    i ∈ ((cfg3.win 3).blk t).view.set ↔ ∀ d : Fin 2, win3_3.index t d * S2000x128.size d ≤ (i d).val ∧ (i d).val < win3_3.index t d * S2000x128.size d + S2000x128.size d := by
  show i ∈ ((View.whole main_v90).slice (win3_3.rect t)).set ↔ _
  rw [View.set_slice_whole, Rect.mem_set_unit]
  exact Iff.rfl

/-- Every row is in the block of the point its number divided by 2000 names. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_3 _, ?_⟩
  obtain ⟨e0, e1, e2, e3, eb, e4, e5⟩ := idx_facts ⟨(i 0).val / 2000, by rw [hN]; omega⟩
  rw [mem_blk]
  intro d
  match d with
  | ⟨0, _⟩ => show win3_3.index _ (0 : Fin 2) * 2000 ≤ (i 0).val ∧ (i 0).val < win3_3.index _ (0 : Fin 2) * 2000 + 2000; rw [e4]; show (i 0).val / 2000 * 2000 ≤ _ ∧ _ < (i 0).val / 2000 * 2000 + 2000; omega
  | ⟨1, _⟩ => show win3_3.index _ (1 : Fin 2) * 128 ≤ (i 1).val ∧ (i 1).val < win3_3.index _ (1 : Fin 2) * 128 + 128; rw [e5]; omega

/-- The output array after the region: the whole result of the arrays the region was entered with. -/
theorem final (c : Dev nD) : (dat3 V c).arrAt 3 cfg3.N = (reluLinear 50000 128 128 (V c main_v89) (V c main_arg9) (V c main_arg10) : S50000x128.Idx → EReal) :=
  (dat3 V c).arrAt_eq_of_cover 3 _ (fun t _ => flushed_eq V c t) cover

end Cert.KernelIdeal.Region3

end
-- ==== Proof.Region4.lean ====
/-
  The array region 4 leaves: a product computed a block of 2000 rows at a time.

  At grid point t the body multiplies rows 2000·t … 2000·t + 1999 of the left array by the whole right
  array, adds the bias row, and writes the block back to the same rows of the output. Entry (i, j) of the output
  therefore ends as ∑ k, a[i, k] · b[k, j] + bias[j]: the 25 blocks cover all 50000 rows.
-/
import proofs.«147575_j61632780698356_1_alg».proof.Proof.Gen.KernelIdeal.Frame
import proofs.«147575_j61632780698356_1_alg».proof.Proof.LibBlockProd
import proofs.«147575_j61632780698356_1_alg».proof.Proof.LibAttLayout
import proofs.«147575_j61632780698356_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region4

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the left array and the output move a block of rows per point,
    the right array and the bias row stay whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The body's result at an entry: when x0 holds the rows off … off + 1999 of a, x1 is b and x2 the bias row,
    entry j of the result is entry i of the whole product with the bias added, i being j moved down off rows. -/
theorem pay_at (x0 : Vec Ideal S2000x128 .f32) (x1 : Vec Ideal S128x128 .f32) (x2 : Vec Ideal S128 .f32)
    (a : S50000x128.Idx → EReal) (b : S128x128.Idx → EReal) (bv : S128.Idx → EReal) (off : Nat) (hoff : off + 2000 ≤ 50000)
    (hx : ∀ (y : S2000x128.Idx) (i : S50000x128.Idx), (i 0).val = off + (y 0).val → (i 1).val = (y 1).val → x0 y = a i)
    (hy : ∀ y : S128x128.Idx, x1 y = b y)
    (hz2 : ∀ y : S128.Idx, x2 y = bv y)
    (j : S2000x128.Idx) (i : S50000x128.Idx) (hi0 : (i 0).val = off + (j 0).val) (hi1 : (i 1).val = (j 1).val) :
    k4_pay1 (F := Ideal) x0 x1 x2 j = linear 50000 128 128 a b bv i := by
  obtain ⟨p, q, rfl⟩ : ∃ (p : Fin 2000) (q : Fin 128), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k4_pay1
  have hmm := matmul_rows 50000 128 128 2000 none (truncf .bf16 (shapeCast S2000x128 x0 shapeCasts_S2000x128_S2000x128) bitsLt_bf16_f32)
    (truncf .bf16 x1 bitsLt_bf16_f32) a b (fun p => ⟨off + p.val, by omega⟩)
    (fun p k => (congrFun (shapeCast_self x0 shapeCasts_S2000x128_S2000x128) (ix2 p k)).trans (hx (ix2 p k) (ix2 _ k) rfl rfl)) (fun k q => hy (ix2 k q)) p q
  have hb := Cert.AttLayout.row_spread (R := 2000) x2 shapeCasts_S128_S1x128 broadcasts_S1x128_S2000x128 p q
  show FloatOps.addf _ _ = _
  rw [hb, hz2]
  exact congrArg (fun z => FloatOps.addf z (bv (ix1 q))) hmm

/-- What point t writes back is block t of the whole result. -/
theorem flushed_eq (c : Dev nD) (t : Fin cfg4.N) :
    (dat4 V c).flushed 3 t = ((cfg4.win 3).blk t).view.read (Elt Ideal)
      (linear 50000 128 128 (V c main_v90) (V c main_arg11) (V c main_arg12) : S50000x128.Idx → EReal) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S128) hz1]
  obtain ⟨e0, e1, e2, e3, eb, e4, e5⟩ := idx_facts t
  have ht : t.val < 25 := lt_of_lt_of_eq t.isLt N_4
  funext j
  refine pay_at (iblk4 V c 0 t) (iblk4 V c 1 t) (iblk4 V c 2 t) _ _ _ (t.val * 2000) (by omega) ?_ ?_ ?_ j _ ?_ ?_
  · intro y i h0 h1
    show V c main_v90 (((cfg4.win 0).blk t).view.emb y) = V c main_v90 i
    congr 1
    funext d
    apply Fin.ext
    match d with
    | ⟨0, _⟩ => show win4_0.index t (0 : Fin 2) * 2000 + 1 * (y 0).val = (i 0).val; rw [e0, h0]; omega
    | ⟨1, _⟩ => show win4_0.index t (1 : Fin 2) * 128 + 1 * (y 1).val = (i 1).val; rw [e1, h1]; omega
  · intro y
    show V c main_arg11 (((cfg4.win 1).blk t).view.emb y) = V c main_arg11 y
    congr 1
    funext d
    apply Fin.ext
    match d with
    | ⟨0, _⟩ => show win4_1.index t (0 : Fin 2) * 128 + 1 * (y 0).val = (y 0).val; rw [e2]; omega
    | ⟨1, _⟩ => show win4_1.index t (1 : Fin 2) * 128 + 1 * (y 1).val = (y 1).val; rw [e3]; omega
  · intro y
    show V c main_arg12 (((cfg4.win 2).blk t).view.emb y) = V c main_arg12 y
    congr 1
    funext d
    apply Fin.ext
    match d with
    | ⟨0, _⟩ => show win4_2.index t (0 : Fin 1) * 128 + 1 * (y 0).val = (y 0).val; rw [eb]; omega
  · show win4_3.index t (0 : Fin 2) * 2000 + 1 * (j 0).val = t.val * 2000 + (j 0).val; rw [e4]; omega
  · show win4_3.index t (1 : Fin 2) * 128 + 1 * (j 1).val = (j 1).val; rw [e5]; omega

/-- An index of the output is in point t's block iff each coordinate is in the block's range. -/
theorem mem_blk (t : Fin cfg4.N) (i : S50000x128.Idx) :
    i ∈ ((cfg4.win 3).blk t).view.set ↔ ∀ d : Fin 2, win4_3.index t d * S2000x128.size d ≤ (i d).val ∧ (i d).val < win4_3.index t d * S2000x128.size d + S2000x128.size d := by
  show i ∈ ((View.whole main_v91).slice (win4_3.rect t)).set ↔ _
  rw [View.set_slice_whole, Rect.mem_set_unit]
  exact Iff.rfl

/-- Every row is in the block of the point its number divided by 2000 names. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_3 _, ?_⟩
  obtain ⟨e0, e1, e2, e3, eb, e4, e5⟩ := idx_facts ⟨(i 0).val / 2000, by rw [hN]; omega⟩
  rw [mem_blk]
  intro d
  match d with
  | ⟨0, _⟩ => show win4_3.index _ (0 : Fin 2) * 2000 ≤ (i 0).val ∧ (i 0).val < win4_3.index _ (0 : Fin 2) * 2000 + 2000; rw [e4]; show (i 0).val / 2000 * 2000 ≤ _ ∧ _ < (i 0).val / 2000 * 2000 + 2000; omega
  | ⟨1, _⟩ => show win4_3.index _ (1 : Fin 2) * 128 ≤ (i 1).val ∧ (i 1).val < win4_3.index _ (1 : Fin 2) * 128 + 128; rw [e5]; omega

/-- The output array after the region: the whole result of the arrays the region was entered with. -/
theorem final (c : Dev nD) : (dat4 V c).arrAt 3 cfg4.N = (linear 50000 128 128 (V c main_v90) (V c main_arg11) (V c main_arg12) : S50000x128.Idx → EReal) :=
  (dat4 V c).arrAt_eq_of_cover 3 _ (fun t _ => flushed_eq V c t) cover

end Cert.KernelIdeal.Region4

end
-- ==== Proof.Region5.lean ====
/-
  The array region 5 leaves: a product computed a block of 2000 rows at a time.

  At grid point t the body multiplies rows 2000·t … 2000·t + 1999 of the left array by the whole right
  array, and writes the block back to the same rows of the output. Entry (i, j) of the output
  therefore ends as ∑ k, a[i, k] · b[k, j]: the 25 blocks cover all 50000 rows.
-/
import proofs.«147575_j61632780698356_1_alg».proof.Proof.Gen.KernelIdeal.Frame
import proofs.«147575_j61632780698356_1_alg».proof.Proof.LibBlockProd
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.BlockProd

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the output move a block of rows per point,
    the right array stays whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's result at an entry: when x0 holds the rows off … off + 1999 of a, x1 is b,
    entry j of the result is entry i of the whole product, i being j moved down off rows. -/
theorem pay_at (x0 : Vec Ideal S2000x128 .f32) (x1 : Vec Ideal S128x1000 .f32)
    (a : S50000x128.Idx → EReal) (b : S128x1000.Idx → EReal) (off : Nat) (hoff : off + 2000 ≤ 50000)
    (hx : ∀ (y : S2000x128.Idx) (i : S50000x128.Idx), (i 0).val = off + (y 0).val → (i 1).val = (y 1).val → x0 y = a i)
    (hy : ∀ y : S128x1000.Idx, x1 y = b y)
    (j : S2000x1000.Idx) (i : S50000x1000.Idx) (hi0 : (i 0).val = off + (j 0).val) (hi1 : (i 1).val = (j 1).val) :
    k5_pay1 (F := Ideal) x0 x1 j = matProd 50000 128 1000 a b i := by
  obtain ⟨p, q, rfl⟩ : ∃ (p : Fin 2000) (q : Fin 1000), j = ix2 p q := ⟨j 0, j 1, eq_ix2 j⟩
  have hp : off + p.val < 50000 := lt_of_lt_of_le (Nat.add_lt_add_left p.isLt off) hoff
  obtain rfl : i = ix2 (⟨off + p.val, hp⟩ : Fin 50000) q := by
    funext d
    match d with
    | ⟨0, _⟩ => exact Fin.ext hi0
    | ⟨1, _⟩ => exact Fin.ext hi1
  unfold k5_pay1
  exact matmul_rows 50000 128 1000 2000 none (truncf .bf16 (shapeCast S2000x128 x0 shapeCasts_S2000x128_S2000x128) bitsLt_bf16_f32)
    (truncf .bf16 (shapeCast S128x1000 x1 shapeCasts_S128x1000_S128x1000) bitsLt_bf16_f32) a b (fun p => ⟨off + p.val, by omega⟩)
    (fun p k => (congrFun (shapeCast_self x0 shapeCasts_S2000x128_S2000x128) (ix2 p k)).trans (hx (ix2 p k) (ix2 _ k) rfl rfl)) (fun k q => (congrFun (shapeCast_self x1 shapeCasts_S128x1000_S128x1000) (ix2 k q)).trans (hy (ix2 k q))) p q

/-- What point t writes back is block t of the whole result. -/
theorem flushed_eq (c : Dev nD) (t : Fin cfg5.N) :
    (dat5 V c).flushed 2 t = ((cfg5.win 2).blk t).view.read (Elt Ideal)
      (matProd 50000 128 1000 (V c main_v91) (V c main_v92) : S50000x1000.Idx → EReal) := by
  show (cfg5.win 2).cut (grid5.coords t) ((dat5 V c).after 2 t) = _
  rw [after5_2]
  unfold out5_2
  rw [View.canon_unit_zero hz]
  simp only [View.ld_unit_zero (S := S2000x128) hz, View.ld_unit_zero (S := S128x1000) hz]
  obtain ⟨e0, e1, e2, e3, e4, e5⟩ := idx_facts t
  have ht : t.val < 25 := lt_of_lt_of_eq t.isLt N_5
  funext j
  refine pay_at (iblk5 V c 0 t) (iblk5 V c 1 t) _ _ (t.val * 2000) (by omega) ?_ ?_ j _ ?_ ?_
  · intro y i h0 h1
    show V c main_v91 (((cfg5.win 0).blk t).view.emb y) = V c main_v91 i
    congr 1
    funext d
    apply Fin.ext
    match d with
    | ⟨0, _⟩ => show win5_0.index t (0 : Fin 2) * 2000 + 1 * (y 0).val = (i 0).val; rw [e0, h0]; omega
    | ⟨1, _⟩ => show win5_0.index t (1 : Fin 2) * 128 + 1 * (y 1).val = (i 1).val; rw [e1, h1]; omega
  · intro y
    show V c main_v92 (((cfg5.win 1).blk t).view.emb y) = V c main_v92 y
    congr 1
    funext d
    apply Fin.ext
    match d with
    | ⟨0, _⟩ => show win5_1.index t (0 : Fin 2) * 128 + 1 * (y 0).val = (y 0).val; rw [e2]; omega
    | ⟨1, _⟩ => show win5_1.index t (1 : Fin 2) * 1000 + 1 * (y 1).val = (y 1).val; rw [e3]; omega
  · show win5_2.index t (0 : Fin 2) * 2000 + 1 * (j 0).val = t.val * 2000 + (j 0).val; rw [e4]; omega
  · show win5_2.index t (1 : Fin 2) * 1000 + 1 * (j 1).val = (j 1).val; rw [e5]; omega

/-- An index of the output is in point t's block iff each coordinate is in the block's range. -/
theorem mem_blk (t : Fin cfg5.N) (i : S50000x1000.Idx) :
    i ∈ ((cfg5.win 2).blk t).view.set ↔ ∀ d : Fin 2, win5_2.index t d * S2000x1000.size d ≤ (i d).val ∧ (i d).val < win5_2.index t d * S2000x1000.size d + S2000x1000.size d := by
  show i ∈ ((View.whole main_v93).slice (win5_2.rect t)).set ↔ _
  rw [View.set_slice_whole, Rect.mem_set_unit]
  exact Iff.rfl

/-- Every row is in the block of the point its number divided by 2000 names. -/
theorem cover (i : S50000x1000.Idx) : ∃ t : Fin cfg5.N, (cfg5.win 2).flush t = true ∧ i ∈ ((cfg5.win 2).blk t).view.set := by
  have hi0 : (i 0).val < 50000 := (i 0).isLt
  have hi1 : (i 1).val < 1000 := (i 1).isLt
  have hN : cfg5.N = 25 := N_5
  refine ⟨⟨(i 0).val / 2000, by rw [hN]; omega⟩, flush5_2 _, ?_⟩
  obtain ⟨e0, e1, e2, e3, e4, e5⟩ := idx_facts ⟨(i 0).val / 2000, by rw [hN]; omega⟩
  rw [mem_blk]
  intro d
  match d with
  | ⟨0, _⟩ => show win5_2.index _ (0 : Fin 2) * 2000 ≤ (i 0).val ∧ (i 0).val < win5_2.index _ (0 : Fin 2) * 2000 + 2000; rw [e4]; show (i 0).val / 2000 * 2000 ≤ _ ∧ _ < (i 0).val / 2000 * 2000 + 2000; omega
  | ⟨1, _⟩ => show win5_2.index _ (1 : Fin 2) * 1000 ≤ (i 1).val ∧ (i 1).val < win5_2.index _ (1 : Fin 2) * 1000 + 1000; rw [e5]; omega

/-- The output array after the region: the whole result of the arrays the region was entered with. -/
theorem final (c : Dev nD) : (dat5 V c).arrAt 2 cfg5.N = (matProd 50000 128 1000 (V c main_v91) (V c main_v92) : S50000x1000.Idx → EReal) :=
  (dat5 V c).arrAt_eq_of_cover 2 _ (fun t _ => flushed_eq V c t) cover

end Cert.KernelIdeal.Region5

end
-- ==== Proof.HostStages.lean ====
/-
  The host lines between the kernel regions, read as the reference's own stages.

  Each stretch of host operations of the kernel program is, line for line, a stretch of the reference:
  the edge lists split and wrapped, the degree count, its inverse square root gathered at both ends of
  every edge, and, per layer, the messages gathered, scaled, added up at their targets, the self term
  and the bias. So when the buffers a stretch reads hold the reference's values of the corresponding
  stages, the buffer it writes last holds the reference's value of that stage. (The reference recomputes
  the edge coefficients in every layer; the recomputed terms are the same terms.)
-/
import proofs.«147575_j61632780698356_1_alg».proof.Proof.Gen.KernelIdeal.Launch
import proofs.«147575_j61632780698356_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStages

open Cert.KernelIdeal Cert.KernelIdeal.Gen Cert.ReferenceIdeal.Read

variable (W : Valuation τ sig (Elt Ideal))

/-! ## Before the first region: the edge lists and the coefficients -/

theorem src_list (x1 : (⟨Cert.ReferenceIdeal.S2x800000, .i32⟩ : BufTy).Contents (Elt Ideal))
    (h0 : W (Proc.devRef .tc main_arg1) = x1) :
    StableHlo.after hostOps0 W (Proc.devRef .tc main_v1) = val_main_v1 (F := Ideal) x1 := by
  after_results_simp
  rw [h0]
  rfl

theorem dst_list (x1 : (⟨Cert.ReferenceIdeal.S2x800000, .i32⟩ : BufTy).Contents (Elt Ideal))
    (h0 : W (Proc.devRef .tc main_arg1) = x1) :
    StableHlo.after hostOps0 W (Proc.devRef .tc main_v3) = val_main_v3 (F := Ideal) x1 := by
  after_results_simp
  rw [h0]
  rfl

theorem edge_coef (x1 : (⟨Cert.ReferenceIdeal.S2x800000, .i32⟩ : BufTy).Contents (Elt Ideal))
    (h0 : W (Proc.devRef .tc main_arg1) = x1) :
    StableHlo.after hostOps0 W (Proc.devRef .tc main_v25) = val_main_v26 (F := Ideal) x1 := by
  after_results_simp
  rw [h0]
  rfl

theorem self_coef (x1 : (⟨Cert.ReferenceIdeal.S2x800000, .i32⟩ : BufTy).Contents (Elt Ideal))
    (h0 : W (Proc.devRef .tc main_arg1) = x1) :
    StableHlo.after hostOps0 W (Proc.devRef .tc main_v26) = val_main_v40 (F := Ideal) x1 := by
  after_results_simp
  rw [h0]
  rfl

/-! ## The reference's recomputed coefficients are the first layer's -/

theorem edge_coef2 (x1 : (⟨Cert.ReferenceIdeal.S2x800000, .i32⟩ : BufTy).Contents (Elt Ideal)) : val_main_v70 (F := Ideal) x1 = val_main_v26 (F := Ideal) x1 := rfl
theorem self_coef2 (x1 : (⟨Cert.ReferenceIdeal.S2x800000, .i32⟩ : BufTy).Contents (Elt Ideal)) : val_main_v84 (F := Ideal) x1 = val_main_v40 (F := Ideal) x1 := rfl
theorem edge_coef3 (x1 : (⟨Cert.ReferenceIdeal.S2x800000, .i32⟩ : BufTy).Contents (Elt Ideal)) : val_main_v114 (F := Ideal) x1 = val_main_v26 (F := Ideal) x1 := rfl
theorem self_coef3 (x1 : (⟨Cert.ReferenceIdeal.S2x800000, .i32⟩ : BufTy).Contents (Elt Ideal)) : val_main_v128 (F := Ideal) x1 = val_main_v40 (F := Ideal) x1 := rfl

/-! ## The aggregation of each layer -/

theorem layer1 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal))
    (h0 : W (Proc.devRef .tc main_v27) = val_main_v4 (F := Ideal) x0 x3)
    (h1 : W (Proc.devRef .tc main_v1) = val_main_v1 (F := Ideal) x1)
    (h2 : W (Proc.devRef .tc main_v3) = val_main_v3 (F := Ideal) x1)
    (h3 : W (Proc.devRef .tc main_v25) = val_main_v26 (F := Ideal) x1)
    (h4 : W (Proc.devRef .tc main_v26) = val_main_v40 (F := Ideal) x1)
    (h5 : W (Proc.devRef .tc main_arg4) = x4) :
    StableHlo.after hostOps1 W (Proc.devRef .tc main_v47) = val_main_v47 (F := Ideal) x0 x1 x3 x4 := by
  after_results_simp
  rw [h0, h1, h2, h3, h4, h5]
  rfl

theorem layer2 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal))
    (h0 : W (Proc.devRef .tc main_v48) = val_main_v48 (F := Ideal) x0 x1 x3 x4 x5)
    (h1 : W (Proc.devRef .tc main_v1) = val_main_v1 (F := Ideal) x1)
    (h2 : W (Proc.devRef .tc main_v3) = val_main_v3 (F := Ideal) x1)
    (h3 : W (Proc.devRef .tc main_v25) = val_main_v70 (F := Ideal) x1)
    (h4 : W (Proc.devRef .tc main_v26) = val_main_v84 (F := Ideal) x1)
    (h5 : W (Proc.devRef .tc main_arg6) = x6) :
    StableHlo.after hostOps2 W (Proc.devRef .tc main_v68) = val_main_v91 (F := Ideal) x0 x1 x3 x4 x5 x6 := by
  after_results_simp
  rw [h0, h1, h2, h3, h4, h5]
  rfl

theorem layer3 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal))
    (h0 : W (Proc.devRef .tc main_v69) = val_main_v92 (F := Ideal) x0 x1 x3 x4 x5 x6 x7)
    (h1 : W (Proc.devRef .tc main_v1) = val_main_v1 (F := Ideal) x1)
    (h2 : W (Proc.devRef .tc main_v3) = val_main_v3 (F := Ideal) x1)
    (h3 : W (Proc.devRef .tc main_v25) = val_main_v114 (F := Ideal) x1)
    (h4 : W (Proc.devRef .tc main_v26) = val_main_v128 (F := Ideal) x1)
    (h5 : W (Proc.devRef .tc main_arg8) = x8) :
    StableHlo.after hostOps3 W (Proc.devRef .tc main_v89) = val_main_v135 (F := Ideal) x0 x1 x3 x4 x5 x6 x7 x8 := by
  after_results_simp
  rw [h0, h1, h2, h3, h4, h5]
  rfl

/-! ## The label matrix transposed -/

theorem labels_t (x2 : (⟨Cert.ReferenceIdeal.S1000x128, .f32⟩ : BufTy).Contents (Elt Ideal))
    (h0 : W (Proc.devRef .tc main_arg2) = x2) :
    StableHlo.after hostOps5 W (Proc.devRef .tc main_v92) = val_main_v145 (F := Ideal) x2 := by
  after_results_simp
  rw [h0]
  rfl

end Cert.KernelIdeal.HostStages

end
-- ==== Proof.RefDots.lean ====
/-
  The reference's six products, entry by entry.

  Each dot_general of the reference is a plain product (contract the left array's columns with the
  right array's rows), so it is matProd of its operands' values; the first dense layer adds its bias row
  and clamps at zero, the second adds its bias row.
-/
import proofs.«147575_j61632780698356_1_alg».proof.Proof.Gen.ReferenceIdeal.Read
import proofs.«147575_j61632780698356_1_alg».proof.Proof.LibBlockProd
import proofs.«147575_j61632780698356_1_alg».proof.Proof.Spec
import Idealize.ShloMosaic.Lib.ValueIdx

set_option maxRecDepth 16384

noncomputable section

open Idealize.ShloMosaic Idealize.ShloMosaic.TcCoe
open Idealize.ShloMosaic.ValueIdx Idealize.ShloMosaic.BlockProd

namespace Cert.RefDots

open Cert.ReferenceIdeal Cert.ReferenceIdeal.Read Cert.Spec

/-- The first projection, nodes · W1. -/
theorem proj1 (x0 : (⟨Cert.ReferenceIdeal.S50000x512, .f32⟩ : BufTy).Contents (Elt Ideal)) (x3 : (⟨Cert.ReferenceIdeal.S512x256, .f32⟩ : BufTy).Contents (Elt Ideal)) :
    val_main_v4 (F := Ideal) x0 x3 = matProd 50000 512 256 x0 x3 := by
  unfold val_main_v4
  exact dotGeneral_eq 50000 512 256 none _ _ _

/-- The second projection, of the first layer's output. -/
theorem proj2 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) :
    val_main_v48 (F := Ideal) x0 x1 x3 x4 x5 = matProd 50000 256 192 (val_main_v47 (F := Ideal) x0 x1 x3 x4) x5 := by
  unfold val_main_v48
  exact dotGeneral_eq 50000 256 192 none _ _ _

/-- The third projection, of the second layer's output. -/
theorem proj3 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) :
    val_main_v92 (F := Ideal) x0 x1 x3 x4 x5 x6 x7 = matProd 50000 192 128 (val_main_v91 (F := Ideal) x0 x1 x3 x4 x5 x6) x7 := by
  unfold val_main_v92
  exact dotGeneral_eq 50000 192 128 none _ _ _

theorem dense1_dot (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) :
    val_main_v136 (F := Ideal) x0 x1 x3 x4 x5 x6 x7 x8 x9 = matProd 50000 128 128 (val_main_v135 (F := Ideal) x0 x1 x3 x4 x5 x6 x7 x8) x9 := by
  unfold val_main_v136
  exact dotGeneral_eq 50000 128 128 none _ _ _

/-- The first dense layer: max(x · fc1_w + fc1_b, 0). -/
theorem dense1 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    val_main_v140 (F := Ideal) x0 x1 x3 x4 x5 x6 x7 x8 x9 x10 = reluLinear 50000 128 128 (val_main_v135 (F := Ideal) x0 x1 x3 x4 x5 x6 x7 x8) x9 x10 := by
  funext i
  obtain ⟨p, q, rfl⟩ : ∃ (p : Fin 50000) (q : Fin 128), i = ix2 p q := ⟨i 0, i 1, eq_ix2 i⟩
  rw [val_main_v140_apply, val_main_v139_apply, dense1_dot, val_main_v138_apply, val_main_v137_apply, val_main_call0_v0_apply]
  have e : idx_main_v137 (idx_main_v138 (ix2 p q)) = ix1 q := funext fun d => match d with | ⟨0, _⟩ => rfl
  rw [e]
  rfl

theorem dense2_dot (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) :
    val_main_v141 (F := Ideal) x0 x1 x3 x4 x5 x6 x7 x8 x9 x10 x11 = matProd 50000 128 128 (val_main_v140 (F := Ideal) x0 x1 x3 x4 x5 x6 x7 x8 x9 x10) x11 := by
  unfold val_main_v141
  exact dotGeneral_eq 50000 128 128 none _ _ _

/-- The second dense layer: h · fc2_w + fc2_b. -/
theorem dense2 (x0 : (⟨Cert.ReferenceIdeal.S50000x512, .f32⟩ : BufTy).Contents (Elt Ideal)) (x1 : (⟨Cert.ReferenceIdeal.S2x800000, .i32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) :
    val_main_v144 (F := Ideal) x0 x1 x3 x4 x5 x6 x7 x8 x9 x10 x11 x12 = linear 50000 128 128 (val_main_v140 (F := Ideal) x0 x1 x3 x4 x5 x6 x7 x8 x9 x10) x11 x12 := by
  funext i
  obtain ⟨p, q, rfl⟩ : ∃ (p : Fin 50000) (q : Fin 128), i = ix2 p q := ⟨i 0, i 1, eq_ix2 i⟩
  rw [val_main_v144_apply, dense2_dot, val_main_v143_apply, val_main_v142_apply]
  have e : idx_main_v142 (idx_main_v143 (ix2 p q)) = ix1 q := funext fun d => match d with | ⟨0, _⟩ => rfl
  rw [e]
  rfl

/-- The similarity with the transposed label matrix. -/
theorem preds (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S1000x128, .f32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S256x192, .f32⟩ : BufTy).Contents (Elt Ideal)) (x6 : (⟨Cert.ReferenceIdeal.S192, .f32⟩ : BufTy).Contents (Elt Ideal)) (x7 : (⟨Cert.ReferenceIdeal.S192x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) :
    val_main_v146 (F := Ideal) x0 x1 x2 x3 x4 x5 x6 x7 x8 x9 x10 x11 x12 = matProd 50000 128 1000 (val_main_v144 (F := Ideal) x0 x1 x3 x4 x5 x6 x7 x8 x9 x10 x11 x12) (val_main_v145 (F := Ideal) x2) := by
  unfold val_main_v146
  exact dotGeneral_eq 50000 128 1000 none _ _ _

end Cert.RefDots

end
-- ==== Proof.Chain.lean ====
/-
  The kernel program's buffers, boundary by boundary, as the reference's stages.

  The run of the kernel program passes eleven boundaries: a stretch of host lines or a kernel region
  each. At every boundary the buffers still to be read hold the reference's value of the corresponding
  stage, as a function of the argument arrays: a host stretch by the line-for-line reading, a region
  because the array it leaves is the whole product (plus bias, clamped, for the dense layers), which
  is the reference's dot_general; every other buffer is carried across unchanged. At the last
  boundary the result buffer holds the reference's result.
-/
import proofs.«147575_j61632780698356_1_alg».proof.Proof.Gen.KernelIdeal.Frame
import proofs.«147575_j61632780698356_1_alg».proof.Proof.Region0
import proofs.«147575_j61632780698356_1_alg».proof.Proof.Region1
import proofs.«147575_j61632780698356_1_alg».proof.Proof.Region2
import proofs.«147575_j61632780698356_1_alg».proof.Proof.Region3
import proofs.«147575_j61632780698356_1_alg».proof.Proof.Region4
import proofs.«147575_j61632780698356_1_alg».proof.Proof.Region5
import proofs.«147575_j61632780698356_1_alg».proof.Proof.HostStages
import proofs.«147575_j61632780698356_1_alg».proof.Proof.RefDots

set_option maxRecDepth 16384

noncomputable section

open Idealize.ShloMosaic Idealize.ShloMosaic.TcCoe Idealize.SL.Sem Idealize.ShloMosaic.StableHlo
open Idealize.ShloMosaic.BlockProd

namespace Cert.KernelIdeal.Chain

open Cert.KernelIdeal Cert.KernelIdeal.Gen Cert.ReferenceIdeal.Read Cert.Spec

variable (m : (ℓ : Loc nD τ sig) → Buf (Elt Ideal) ℓ) (ρ : Dev nD → PrngReg) (c : Dev nD)

/-! ## The argument arrays as launched -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)
abbrev X10 := m ((c : Thread nD τ).loc main_arg10)
abbrev X11 := m ((c : Thread nD τ).loc main_arg11)
abbrev X12 := m ((c : Thread nD τ).loc main_arg12)

/-- A buffer no line of a host stretch writes is unchanged by the stretch. -/
macro "keep_host" : tactic => `(tactic| (
  refine StableHlo.after_of_forall_not_mem _ _ (List.forall_iff_forall_mem.mp ?_)
  simp only [hostOps0, hostOps1, hostOps2, hostOps3, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Boundary 1: after a host stretch -/

theorem W1_arg0 : W1 m ρ c (Proc.devRef .tc main_arg0) = X0 m c :=
  (show StableHlo.after hostOps0 (W0 m ρ c) (Proc.devRef .tc main_arg0) = W0 m ρ c (Proc.devRef .tc main_arg0) from by keep_host).trans (rfl)
theorem W1_arg3 : W1 m ρ c (Proc.devRef .tc main_arg3) = X3 m c :=
  (show StableHlo.after hostOps0 (W0 m ρ c) (Proc.devRef .tc main_arg3) = W0 m ρ c (Proc.devRef .tc main_arg3) from by keep_host).trans (rfl)
theorem W1_v1 : W1 m ρ c (Proc.devRef .tc main_v1) = val_main_v1 (F := Ideal) (X1 m c) :=
  HostStages.src_list (W0 m ρ c) _ rfl
theorem W1_v3 : W1 m ρ c (Proc.devRef .tc main_v3) = val_main_v3 (F := Ideal) (X1 m c) :=
  HostStages.dst_list (W0 m ρ c) _ rfl
theorem W1_v25 : W1 m ρ c (Proc.devRef .tc main_v25) = val_main_v26 (F := Ideal) (X1 m c) :=
  HostStages.edge_coef (W0 m ρ c) _ rfl
theorem W1_v26 : W1 m ρ c (Proc.devRef .tc main_v26) = val_main_v40 (F := Ideal) (X1 m c) :=
  HostStages.self_coef (W0 m ρ c) _ rfl
theorem W1_arg4 : W1 m ρ c (Proc.devRef .tc main_arg4) = X4 m c :=
  (show StableHlo.after hostOps0 (W0 m ρ c) (Proc.devRef .tc main_arg4) = W0 m ρ c (Proc.devRef .tc main_arg4) from by keep_host).trans (rfl)
theorem W1_arg5 : W1 m ρ c (Proc.devRef .tc main_arg5) = X5 m c :=
  (show StableHlo.after hostOps0 (W0 m ρ c) (Proc.devRef .tc main_arg5) = W0 m ρ c (Proc.devRef .tc main_arg5) from by keep_host).trans (rfl)
theorem W1_arg6 : W1 m ρ c (Proc.devRef .tc main_arg6) = X6 m c :=
  (show StableHlo.after hostOps0 (W0 m ρ c) (Proc.devRef .tc main_arg6) = W0 m ρ c (Proc.devRef .tc main_arg6) from by keep_host).trans (rfl)
theorem W1_arg7 : W1 m ρ c (Proc.devRef .tc main_arg7) = X7 m c :=
  (show StableHlo.after hostOps0 (W0 m ρ c) (Proc.devRef .tc main_arg7) = W0 m ρ c (Proc.devRef .tc main_arg7) from by keep_host).trans (rfl)
theorem W1_arg8 : W1 m ρ c (Proc.devRef .tc main_arg8) = X8 m c :=
  (show StableHlo.after hostOps0 (W0 m ρ c) (Proc.devRef .tc main_arg8) = W0 m ρ c (Proc.devRef .tc main_arg8) from by keep_host).trans (rfl)
theorem W1_arg9 : W1 m ρ c (Proc.devRef .tc main_arg9) = X9 m c :=
  (show StableHlo.after hostOps0 (W0 m ρ c) (Proc.devRef .tc main_arg9) = W0 m ρ c (Proc.devRef .tc main_arg9) from by keep_host).trans (rfl)
theorem W1_arg10 : W1 m ρ c (Proc.devRef .tc main_arg10) = X10 m c :=
  (show StableHlo.after hostOps0 (W0 m ρ c) (Proc.devRef .tc main_arg10) = W0 m ρ c (Proc.devRef .tc main_arg10) from by keep_host).trans (rfl)
theorem W1_arg11 : W1 m ρ c (Proc.devRef .tc main_arg11) = X11 m c :=
  (show StableHlo.after hostOps0 (W0 m ρ c) (Proc.devRef .tc main_arg11) = W0 m ρ c (Proc.devRef .tc main_arg11) from by keep_host).trans (rfl)
theorem W1_arg12 : W1 m ρ c (Proc.devRef .tc main_arg12) = X12 m c :=
  (show StableHlo.after hostOps0 (W0 m ρ c) (Proc.devRef .tc main_arg12) = W0 m ρ c (Proc.devRef .tc main_arg12) from by keep_host).trans (rfl)
theorem W1_arg2 : W1 m ρ c (Proc.devRef .tc main_arg2) = X2 m c :=
  (show StableHlo.after hostOps0 (W0 m ρ c) (Proc.devRef .tc main_arg2) = W0 m ρ c (Proc.devRef .tc main_arg2) from by keep_host).trans (rfl)

/-! ## Boundary 2: after region 0 -/

theorem W2_v27 : W2 m ρ c (Proc.devRef .tc main_v27) = val_main_v4 (F := Ideal) (X0 m c) (X3 m c) := by
  refine (W2_arr m ρ c 2).trans ((Region0.final (V1 m ρ) c).trans ?_)
  show matProd 50000 512 256 (W1 m ρ c (Proc.devRef .tc main_arg0)) (W1 m ρ c (Proc.devRef .tc main_arg3)) = _
  rw [W1_arg0 m ρ c, W1_arg3 m ρ c]
  exact (RefDots.proj1 _ _).symm
theorem W2_v1 : W2 m ρ c (Proc.devRef .tc main_v1) = val_main_v1 (F := Ideal) (X1 m c) :=
  (W2_of_ne m ρ c main_v1 (by decide)).trans (W1_v1 m ρ c)
theorem W2_v3 : W2 m ρ c (Proc.devRef .tc main_v3) = val_main_v3 (F := Ideal) (X1 m c) :=
  (W2_of_ne m ρ c main_v3 (by decide)).trans (W1_v3 m ρ c)
theorem W2_v25 : W2 m ρ c (Proc.devRef .tc main_v25) = val_main_v26 (F := Ideal) (X1 m c) :=
  (W2_of_ne m ρ c main_v25 (by decide)).trans (W1_v25 m ρ c)
theorem W2_v26 : W2 m ρ c (Proc.devRef .tc main_v26) = val_main_v40 (F := Ideal) (X1 m c) :=
  (W2_of_ne m ρ c main_v26 (by decide)).trans (W1_v26 m ρ c)
theorem W2_arg4 : W2 m ρ c (Proc.devRef .tc main_arg4) = X4 m c :=
  (W2_of_ne m ρ c main_arg4 (by decide)).trans (W1_arg4 m ρ c)
theorem W2_arg5 : W2 m ρ c (Proc.devRef .tc main_arg5) = X5 m c :=
  (W2_of_ne m ρ c main_arg5 (by decide)).trans (W1_arg5 m ρ c)
theorem W2_arg6 : W2 m ρ c (Proc.devRef .tc main_arg6) = X6 m c :=
  (W2_of_ne m ρ c main_arg6 (by decide)).trans (W1_arg6 m ρ c)
theorem W2_arg7 : W2 m ρ c (Proc.devRef .tc main_arg7) = X7 m c :=
  (W2_of_ne m ρ c main_arg7 (by decide)).trans (W1_arg7 m ρ c)
theorem W2_arg8 : W2 m ρ c (Proc.devRef .tc main_arg8) = X8 m c :=
  (W2_of_ne m ρ c main_arg8 (by decide)).trans (W1_arg8 m ρ c)
theorem W2_arg9 : W2 m ρ c (Proc.devRef .tc main_arg9) = X9 m c :=
  (W2_of_ne m ρ c main_arg9 (by decide)).trans (W1_arg9 m ρ c)
theorem W2_arg10 : W2 m ρ c (Proc.devRef .tc main_arg10) = X10 m c :=
  (W2_of_ne m ρ c main_arg10 (by decide)).trans (W1_arg10 m ρ c)
theorem W2_arg11 : W2 m ρ c (Proc.devRef .tc main_arg11) = X11 m c :=
  (W2_of_ne m ρ c main_arg11 (by decide)).trans (W1_arg11 m ρ c)
theorem W2_arg12 : W2 m ρ c (Proc.devRef .tc main_arg12) = X12 m c :=
  (W2_of_ne m ρ c main_arg12 (by decide)).trans (W1_arg12 m ρ c)
theorem W2_arg2 : W2 m ρ c (Proc.devRef .tc main_arg2) = X2 m c :=
  (W2_of_ne m ρ c main_arg2 (by decide)).trans (W1_arg2 m ρ c)

/-! ## Boundary 3: after a host stretch -/

theorem W3_v47 : W3 m ρ c (Proc.devRef .tc main_v47) = val_main_v47 (F := Ideal) (X0 m c) (X1 m c) (X3 m c) (X4 m c) :=
  HostStages.layer1 (W2 m ρ c) _ _ _ _ (W2_v27 m ρ c) (W2_v1 m ρ c) (W2_v3 m ρ c) (W2_v25 m ρ c) (W2_v26 m ρ c) (W2_arg4 m ρ c)
theorem W3_v1 : W3 m ρ c (Proc.devRef .tc main_v1) = val_main_v1 (F := Ideal) (X1 m c) :=
  (show StableHlo.after hostOps1 (W2 m ρ c) (Proc.devRef .tc main_v1) = W2 m ρ c (Proc.devRef .tc main_v1) from by keep_host).trans (W2_v1 m ρ c)
theorem W3_v3 : W3 m ρ c (Proc.devRef .tc main_v3) = val_main_v3 (F := Ideal) (X1 m c) :=
  (show StableHlo.after hostOps1 (W2 m ρ c) (Proc.devRef .tc main_v3) = W2 m ρ c (Proc.devRef .tc main_v3) from by keep_host).trans (W2_v3 m ρ c)
theorem W3_v25 : W3 m ρ c (Proc.devRef .tc main_v25) = val_main_v26 (F := Ideal) (X1 m c) :=
  (show StableHlo.after hostOps1 (W2 m ρ c) (Proc.devRef .tc main_v25) = W2 m ρ c (Proc.devRef .tc main_v25) from by keep_host).trans (W2_v25 m ρ c)
theorem W3_v26 : W3 m ρ c (Proc.devRef .tc main_v26) = val_main_v40 (F := Ideal) (X1 m c) :=
  (show StableHlo.after hostOps1 (W2 m ρ c) (Proc.devRef .tc main_v26) = W2 m ρ c (Proc.devRef .tc main_v26) from by keep_host).trans (W2_v26 m ρ c)
theorem W3_arg5 : W3 m ρ c (Proc.devRef .tc main_arg5) = X5 m c :=
  (show StableHlo.after hostOps1 (W2 m ρ c) (Proc.devRef .tc main_arg5) = W2 m ρ c (Proc.devRef .tc main_arg5) from by keep_host).trans (W2_arg5 m ρ c)
theorem W3_arg6 : W3 m ρ c (Proc.devRef .tc main_arg6) = X6 m c :=
  (show StableHlo.after hostOps1 (W2 m ρ c) (Proc.devRef .tc main_arg6) = W2 m ρ c (Proc.devRef .tc main_arg6) from by keep_host).trans (W2_arg6 m ρ c)
theorem W3_arg7 : W3 m ρ c (Proc.devRef .tc main_arg7) = X7 m c :=
  (show StableHlo.after hostOps1 (W2 m ρ c) (Proc.devRef .tc main_arg7) = W2 m ρ c (Proc.devRef .tc main_arg7) from by keep_host).trans (W2_arg7 m ρ c)
theorem W3_arg8 : W3 m ρ c (Proc.devRef .tc main_arg8) = X8 m c :=
  (show StableHlo.after hostOps1 (W2 m ρ c) (Proc.devRef .tc main_arg8) = W2 m ρ c (Proc.devRef .tc main_arg8) from by keep_host).trans (W2_arg8 m ρ c)
theorem W3_arg9 : W3 m ρ c (Proc.devRef .tc main_arg9) = X9 m c :=
  (show StableHlo.after hostOps1 (W2 m ρ c) (Proc.devRef .tc main_arg9) = W2 m ρ c (Proc.devRef .tc main_arg9) from by keep_host).trans (W2_arg9 m ρ c)
theorem W3_arg10 : W3 m ρ c (Proc.devRef .tc main_arg10) = X10 m c :=
  (show StableHlo.after hostOps1 (W2 m ρ c) (Proc.devRef .tc main_arg10) = W2 m ρ c (Proc.devRef .tc main_arg10) from by keep_host).trans (W2_arg10 m ρ c)
theorem W3_arg11 : W3 m ρ c (Proc.devRef .tc main_arg11) = X11 m c :=
  (show StableHlo.after hostOps1 (W2 m ρ c) (Proc.devRef .tc main_arg11) = W2 m ρ c (Proc.devRef .tc main_arg11) from by keep_host).trans (W2_arg11 m ρ c)
theorem W3_arg12 : W3 m ρ c (Proc.devRef .tc main_arg12) = X12 m c :=
  (show StableHlo.after hostOps1 (W2 m ρ c) (Proc.devRef .tc main_arg12) = W2 m ρ c (Proc.devRef .tc main_arg12) from by keep_host).trans (W2_arg12 m ρ c)
theorem W3_arg2 : W3 m ρ c (Proc.devRef .tc main_arg2) = X2 m c :=
  (show StableHlo.after hostOps1 (W2 m ρ c) (Proc.devRef .tc main_arg2) = W2 m ρ c (Proc.devRef .tc main_arg2) from by keep_host).trans (W2_arg2 m ρ c)

/-! ## Boundary 4: after region 1 -/

theorem W4_v48 : W4 m ρ c (Proc.devRef .tc main_v48) = val_main_v48 (F := Ideal) (X0 m c) (X1 m c) (X3 m c) (X4 m c) (X5 m c) := by
  refine (W4_arr m ρ c 2).trans ((Region1.final (V3 m ρ) c).trans ?_)
  show matProd 50000 256 192 (W3 m ρ c (Proc.devRef .tc main_v47)) (W3 m ρ c (Proc.devRef .tc main_arg5)) = _
  rw [W3_v47 m ρ c, W3_arg5 m ρ c]
  exact (RefDots.proj2 _ _ _ _ _).symm
theorem W4_v1 : W4 m ρ c (Proc.devRef .tc main_v1) = val_main_v1 (F := Ideal) (X1 m c) :=
  (W4_of_ne m ρ c main_v1 (by decide)).trans (W3_v1 m ρ c)
theorem W4_v3 : W4 m ρ c (Proc.devRef .tc main_v3) = val_main_v3 (F := Ideal) (X1 m c) :=
  (W4_of_ne m ρ c main_v3 (by decide)).trans (W3_v3 m ρ c)
theorem W4_v25 : W4 m ρ c (Proc.devRef .tc main_v25) = val_main_v26 (F := Ideal) (X1 m c) :=
  (W4_of_ne m ρ c main_v25 (by decide)).trans (W3_v25 m ρ c)
theorem W4_v26 : W4 m ρ c (Proc.devRef .tc main_v26) = val_main_v40 (F := Ideal) (X1 m c) :=
  (W4_of_ne m ρ c main_v26 (by decide)).trans (W3_v26 m ρ c)
theorem W4_arg6 : W4 m ρ c (Proc.devRef .tc main_arg6) = X6 m c :=
  (W4_of_ne m ρ c main_arg6 (by decide)).trans (W3_arg6 m ρ c)
theorem W4_arg7 : W4 m ρ c (Proc.devRef .tc main_arg7) = X7 m c :=
  (W4_of_ne m ρ c main_arg7 (by decide)).trans (W3_arg7 m ρ c)
theorem W4_arg8 : W4 m ρ c (Proc.devRef .tc main_arg8) = X8 m c :=
  (W4_of_ne m ρ c main_arg8 (by decide)).trans (W3_arg8 m ρ c)
theorem W4_arg9 : W4 m ρ c (Proc.devRef .tc main_arg9) = X9 m c :=
  (W4_of_ne m ρ c main_arg9 (by decide)).trans (W3_arg9 m ρ c)
theorem W4_arg10 : W4 m ρ c (Proc.devRef .tc main_arg10) = X10 m c :=
  (W4_of_ne m ρ c main_arg10 (by decide)).trans (W3_arg10 m ρ c)
theorem W4_arg11 : W4 m ρ c (Proc.devRef .tc main_arg11) = X11 m c :=
  (W4_of_ne m ρ c main_arg11 (by decide)).trans (W3_arg11 m ρ c)
theorem W4_arg12 : W4 m ρ c (Proc.devRef .tc main_arg12) = X12 m c :=
  (W4_of_ne m ρ c main_arg12 (by decide)).trans (W3_arg12 m ρ c)
theorem W4_arg2 : W4 m ρ c (Proc.devRef .tc main_arg2) = X2 m c :=
  (W4_of_ne m ρ c main_arg2 (by decide)).trans (W3_arg2 m ρ c)

/-! ## Boundary 5: after a host stretch -/

theorem W5_v68 : W5 m ρ c (Proc.devRef .tc main_v68) = val_main_v91 (F := Ideal) (X0 m c) (X1 m c) (X3 m c) (X4 m c) (X5 m c) (X6 m c) :=
  HostStages.layer2 (W4 m ρ c) _ _ _ _ _ _ (W4_v48 m ρ c) (W4_v1 m ρ c) (W4_v3 m ρ c) ((W4_v25 m ρ c).trans (HostStages.edge_coef2 _).symm) ((W4_v26 m ρ c).trans (HostStages.self_coef2 _).symm) (W4_arg6 m ρ c)
theorem W5_v1 : W5 m ρ c (Proc.devRef .tc main_v1) = val_main_v1 (F := Ideal) (X1 m c) :=
  (show StableHlo.after hostOps2 (W4 m ρ c) (Proc.devRef .tc main_v1) = W4 m ρ c (Proc.devRef .tc main_v1) from by keep_host).trans (W4_v1 m ρ c)
theorem W5_v3 : W5 m ρ c (Proc.devRef .tc main_v3) = val_main_v3 (F := Ideal) (X1 m c) :=
  (show StableHlo.after hostOps2 (W4 m ρ c) (Proc.devRef .tc main_v3) = W4 m ρ c (Proc.devRef .tc main_v3) from by keep_host).trans (W4_v3 m ρ c)
theorem W5_v25 : W5 m ρ c (Proc.devRef .tc main_v25) = val_main_v26 (F := Ideal) (X1 m c) :=
  (show StableHlo.after hostOps2 (W4 m ρ c) (Proc.devRef .tc main_v25) = W4 m ρ c (Proc.devRef .tc main_v25) from by keep_host).trans (W4_v25 m ρ c)
theorem W5_v26 : W5 m ρ c (Proc.devRef .tc main_v26) = val_main_v40 (F := Ideal) (X1 m c) :=
  (show StableHlo.after hostOps2 (W4 m ρ c) (Proc.devRef .tc main_v26) = W4 m ρ c (Proc.devRef .tc main_v26) from by keep_host).trans (W4_v26 m ρ c)
theorem W5_arg7 : W5 m ρ c (Proc.devRef .tc main_arg7) = X7 m c :=
  (show StableHlo.after hostOps2 (W4 m ρ c) (Proc.devRef .tc main_arg7) = W4 m ρ c (Proc.devRef .tc main_arg7) from by keep_host).trans (W4_arg7 m ρ c)
theorem W5_arg8 : W5 m ρ c (Proc.devRef .tc main_arg8) = X8 m c :=
  (show StableHlo.after hostOps2 (W4 m ρ c) (Proc.devRef .tc main_arg8) = W4 m ρ c (Proc.devRef .tc main_arg8) from by keep_host).trans (W4_arg8 m ρ c)
theorem W5_arg9 : W5 m ρ c (Proc.devRef .tc main_arg9) = X9 m c :=
  (show StableHlo.after hostOps2 (W4 m ρ c) (Proc.devRef .tc main_arg9) = W4 m ρ c (Proc.devRef .tc main_arg9) from by keep_host).trans (W4_arg9 m ρ c)
theorem W5_arg10 : W5 m ρ c (Proc.devRef .tc main_arg10) = X10 m c :=
  (show StableHlo.after hostOps2 (W4 m ρ c) (Proc.devRef .tc main_arg10) = W4 m ρ c (Proc.devRef .tc main_arg10) from by keep_host).trans (W4_arg10 m ρ c)
theorem W5_arg11 : W5 m ρ c (Proc.devRef .tc main_arg11) = X11 m c :=
  (show StableHlo.after hostOps2 (W4 m ρ c) (Proc.devRef .tc main_arg11) = W4 m ρ c (Proc.devRef .tc main_arg11) from by keep_host).trans (W4_arg11 m ρ c)
theorem W5_arg12 : W5 m ρ c (Proc.devRef .tc main_arg12) = X12 m c :=
  (show StableHlo.after hostOps2 (W4 m ρ c) (Proc.devRef .tc main_arg12) = W4 m ρ c (Proc.devRef .tc main_arg12) from by keep_host).trans (W4_arg12 m ρ c)
theorem W5_arg2 : W5 m ρ c (Proc.devRef .tc main_arg2) = X2 m c :=
  (show StableHlo.after hostOps2 (W4 m ρ c) (Proc.devRef .tc main_arg2) = W4 m ρ c (Proc.devRef .tc main_arg2) from by keep_host).trans (W4_arg2 m ρ c)

/-! ## Boundary 6: after region 2 -/

theorem W6_v69 : W6 m ρ c (Proc.devRef .tc main_v69) = val_main_v92 (F := Ideal) (X0 m c) (X1 m c) (X3 m c) (X4 m c) (X5 m c) (X6 m c) (X7 m c) := by
  refine (W6_arr m ρ c 2).trans ((Region2.final (V5 m ρ) c).trans ?_)
  show matProd 50000 192 128 (W5 m ρ c (Proc.devRef .tc main_v68)) (W5 m ρ c (Proc.devRef .tc main_arg7)) = _
  rw [W5_v68 m ρ c, W5_arg7 m ρ c]
  exact (RefDots.proj3 _ _ _ _ _ _ _).symm
theorem W6_v1 : W6 m ρ c (Proc.devRef .tc main_v1) = val_main_v1 (F := Ideal) (X1 m c) :=
  (W6_of_ne m ρ c main_v1 (by decide)).trans (W5_v1 m ρ c)
theorem W6_v3 : W6 m ρ c (Proc.devRef .tc main_v3) = val_main_v3 (F := Ideal) (X1 m c) :=
  (W6_of_ne m ρ c main_v3 (by decide)).trans (W5_v3 m ρ c)
theorem W6_v25 : W6 m ρ c (Proc.devRef .tc main_v25) = val_main_v26 (F := Ideal) (X1 m c) :=
  (W6_of_ne m ρ c main_v25 (by decide)).trans (W5_v25 m ρ c)
theorem W6_v26 : W6 m ρ c (Proc.devRef .tc main_v26) = val_main_v40 (F := Ideal) (X1 m c) :=
  (W6_of_ne m ρ c main_v26 (by decide)).trans (W5_v26 m ρ c)
theorem W6_arg8 : W6 m ρ c (Proc.devRef .tc main_arg8) = X8 m c :=
  (W6_of_ne m ρ c main_arg8 (by decide)).trans (W5_arg8 m ρ c)
theorem W6_arg9 : W6 m ρ c (Proc.devRef .tc main_arg9) = X9 m c :=
  (W6_of_ne m ρ c main_arg9 (by decide)).trans (W5_arg9 m ρ c)
theorem W6_arg10 : W6 m ρ c (Proc.devRef .tc main_arg10) = X10 m c :=
  (W6_of_ne m ρ c main_arg10 (by decide)).trans (W5_arg10 m ρ c)
theorem W6_arg11 : W6 m ρ c (Proc.devRef .tc main_arg11) = X11 m c :=
  (W6_of_ne m ρ c main_arg11 (by decide)).trans (W5_arg11 m ρ c)
theorem W6_arg12 : W6 m ρ c (Proc.devRef .tc main_arg12) = X12 m c :=
  (W6_of_ne m ρ c main_arg12 (by decide)).trans (W5_arg12 m ρ c)
theorem W6_arg2 : W6 m ρ c (Proc.devRef .tc main_arg2) = X2 m c :=
  (W6_of_ne m ρ c main_arg2 (by decide)).trans (W5_arg2 m ρ c)

/-! ## Boundary 7: after a host stretch -/

theorem W7_v89 : W7 m ρ c (Proc.devRef .tc main_v89) = val_main_v135 (F := Ideal) (X0 m c) (X1 m c) (X3 m c) (X4 m c) (X5 m c) (X6 m c) (X7 m c) (X8 m c) :=
  HostStages.layer3 (W6 m ρ c) _ _ _ _ _ _ _ _ (W6_v69 m ρ c) (W6_v1 m ρ c) (W6_v3 m ρ c) ((W6_v25 m ρ c).trans (HostStages.edge_coef3 _).symm) ((W6_v26 m ρ c).trans (HostStages.self_coef3 _).symm) (W6_arg8 m ρ c)
theorem W7_arg9 : W7 m ρ c (Proc.devRef .tc main_arg9) = X9 m c :=
  (show StableHlo.after hostOps3 (W6 m ρ c) (Proc.devRef .tc main_arg9) = W6 m ρ c (Proc.devRef .tc main_arg9) from by keep_host).trans (W6_arg9 m ρ c)
theorem W7_arg10 : W7 m ρ c (Proc.devRef .tc main_arg10) = X10 m c :=
  (show StableHlo.after hostOps3 (W6 m ρ c) (Proc.devRef .tc main_arg10) = W6 m ρ c (Proc.devRef .tc main_arg10) from by keep_host).trans (W6_arg10 m ρ c)
theorem W7_arg11 : W7 m ρ c (Proc.devRef .tc main_arg11) = X11 m c :=
  (show StableHlo.after hostOps3 (W6 m ρ c) (Proc.devRef .tc main_arg11) = W6 m ρ c (Proc.devRef .tc main_arg11) from by keep_host).trans (W6_arg11 m ρ c)
theorem W7_arg12 : W7 m ρ c (Proc.devRef .tc main_arg12) = X12 m c :=
  (show StableHlo.after hostOps3 (W6 m ρ c) (Proc.devRef .tc main_arg12) = W6 m ρ c (Proc.devRef .tc main_arg12) from by keep_host).trans (W6_arg12 m ρ c)
theorem W7_arg2 : W7 m ρ c (Proc.devRef .tc main_arg2) = X2 m c :=
  (show StableHlo.after hostOps3 (W6 m ρ c) (Proc.devRef .tc main_arg2) = W6 m ρ c (Proc.devRef .tc main_arg2) from by keep_host).trans (W6_arg2 m ρ c)

/-! ## Boundary 8: after region 3 -/

theorem W8_v90 : W8 m ρ c (Proc.devRef .tc main_v90) = val_main_v140 (F := Ideal) (X0 m c) (X1 m c) (X3 m c) (X4 m c) (X5 m c) (X6 m c) (X7 m c) (X8 m c) (X9 m c) (X10 m c) := by
  refine (W8_arr m ρ c 3).trans ((Region3.final (V7 m ρ) c).trans ?_)
  show reluLinear 50000 128 128 (W7 m ρ c (Proc.devRef .tc main_v89)) (W7 m ρ c (Proc.devRef .tc main_arg9)) (W7 m ρ c (Proc.devRef .tc main_arg10)) = _
  rw [W7_v89 m ρ c, W7_arg9 m ρ c, W7_arg10 m ρ c]
  exact (RefDots.dense1 _ _ _ _ _ _ _ _ _ _).symm
theorem W8_arg11 : W8 m ρ c (Proc.devRef .tc main_arg11) = X11 m c :=
  (W8_of_ne m ρ c main_arg11 (by decide)).trans (W7_arg11 m ρ c)
theorem W8_arg12 : W8 m ρ c (Proc.devRef .tc main_arg12) = X12 m c :=
  (W8_of_ne m ρ c main_arg12 (by decide)).trans (W7_arg12 m ρ c)
theorem W8_arg2 : W8 m ρ c (Proc.devRef .tc main_arg2) = X2 m c :=
  (W8_of_ne m ρ c main_arg2 (by decide)).trans (W7_arg2 m ρ c)

/-! ## Boundary 9: after region 4 -/

theorem W9_v91 : W9 m ρ c (Proc.devRef .tc main_v91) = val_main_v144 (F := Ideal) (X0 m c) (X1 m c) (X3 m c) (X4 m c) (X5 m c) (X6 m c) (X7 m c) (X8 m c) (X9 m c) (X10 m c) (X11 m c) (X12 m c) := by
  refine (W9_arr m ρ c 3).trans ((Region4.final (V8 m ρ) c).trans ?_)
  show linear 50000 128 128 (W8 m ρ c (Proc.devRef .tc main_v90)) (W8 m ρ c (Proc.devRef .tc main_arg11)) (W8 m ρ c (Proc.devRef .tc main_arg12)) = _
  rw [W8_v90 m ρ c, W8_arg11 m ρ c, W8_arg12 m ρ c]
  exact (RefDots.dense2 _ _ _ _ _ _ _ _ _ _ _ _).symm
theorem W9_arg2 : W9 m ρ c (Proc.devRef .tc main_arg2) = X2 m c :=
  (W9_of_ne m ρ c main_arg2 (by decide)).trans (W8_arg2 m ρ c)

/-! ## Boundary 10: after a host stretch -/

theorem W10_v91 : W10 m ρ c (Proc.devRef .tc main_v91) = val_main_v144 (F := Ideal) (X0 m c) (X1 m c) (X3 m c) (X4 m c) (X5 m c) (X6 m c) (X7 m c) (X8 m c) (X9 m c) (X10 m c) (X11 m c) (X12 m c) :=
  (show StableHlo.after hostOps5 (W9 m ρ c) (Proc.devRef .tc main_v91) = W9 m ρ c (Proc.devRef .tc main_v91) from by keep_host).trans (W9_v91 m ρ c)
theorem W10_v92 : W10 m ρ c (Proc.devRef .tc main_v92) = val_main_v145 (F := Ideal) (X2 m c) :=
  HostStages.labels_t (W9 m ρ c) _ (W9_arg2 m ρ c)

/-! ## Boundary 11: after region 5 -/

theorem W11_v93 : W11 m ρ c (Proc.devRef .tc main_v93) = val_main_v146 (F := Ideal) (X0 m c) (X1 m c) (X2 m c) (X3 m c) (X4 m c) (X5 m c) (X6 m c) (X7 m c) (X8 m c) (X9 m c) (X10 m c) (X11 m c) (X12 m c) := by
  refine (W11_arr m ρ c 2).trans ((Region5.final (V10 m ρ) c).trans ?_)
  show matProd 50000 128 1000 (W10 m ρ c (Proc.devRef .tc main_v91)) (W10 m ρ c (Proc.devRef .tc main_v92)) = _
  rw [W10_v91 m ρ c, W10_v92 m ρ c]
  exact (RefDots.preds _ _ _ _ _ _ _ _ _ _ _ _ _).symm

/-- The result buffer at the end of the run holds the reference's result of the argument arrays. -/
theorem result : W11 m ρ c (Proc.devRef .tc main_v93) = val_main_v146 (F := Ideal) (X0 m c) (X1 m c) (X2 m c) (X3 m c) (X4 m c) (X5 m c) (X6 m c) (X7 m c) (X8 m c) (X9 m c) (X10 m c) (X11 m c) (X12 m c) := W11_v93 m ρ c

end Cert.KernelIdeal.Chain

end
-- ==== Proof.lean ====
/-
  The kernel program — a three-layer graph convolution, two dense layers and a label similarity whose six
  matrix products run as row-tiled kernel regions — against the reference, on the extended reals.

  Both programs compute, for node features x, edge lists (src, dst), weights and biases:
    deg = 1 + (number of edges into each node), dinv = deg^(-1/2), coef[e] = dinv[src e] · dinv[dst e];
    conv(x, W, b) = scatter-add over edges of (x·W)[src e] · coef[e] into row dst e, plus (x·W)[i] · dinv[i]², plus b;
    h = max(conv³(x) · fc1_w + fc1_b, 0) · fc2_w + fc2_b;  preds = h · labelmatrixᵀ.
  The host lines around the products are the same lines in both programs (the reference recomputes the edge
  coefficients per layer: the same terms), and a bf16 cast is the identity on the extended reals. What differs is how
  each product is computed: the reference by one dot_general, the kernel program 2000 rows at a time, the 25 row
  blocks covering the 50000 rows. Each block holds the matching rows of the whole product (and of the biased,
  clamped product for the dense layers), so the array a region leaves IS the reference's stage; no law of the
  extended reals beyond that rearrangement is used, and finiteness of the inputs is never needed.

  Modules: Region0 … Region5 (the array each region leaves, as a whole product), RefDots (the reference's products
  as the same whole products), HostStages (each host stretch as the reference's stages), Chain (the buffers at the
  eleven boundaries of the run), KernelRun (the run with the result buffer kept).
-/
import proofs.«147575_j61632780698356_1_alg».proof.Defs
import proofs.«147575_j61632780698356_1_alg».proof.Proof.Gen.Kernel
import proofs.«147575_j61632780698356_1_alg».proof.Proof.Gen.Kernel.Skeleton
import proofs.«147575_j61632780698356_1_alg».proof.Proof.Gen.Kernel.Launch
import proofs.«147575_j61632780698356_1_alg».proof.Proof.Gen.Kernel.Points
import proofs.«147575_j61632780698356_1_alg».proof.Proof.Gen.Kernel.Frame
import proofs.«147575_j61632780698356_1_alg».proof.Proof.Gen.KernelIdeal
import proofs.«147575_j61632780698356_1_alg».proof.Proof.Gen.KernelIdeal.Skeleton
import proofs.«147575_j61632780698356_1_alg».proof.Proof.Gen.KernelIdeal.Launch
import proofs.«147575_j61632780698356_1_alg».proof.Proof.Gen.KernelIdeal.Points
import proofs.«147575_j61632780698356_1_alg».proof.Proof.Gen.KernelIdeal.Frame
import proofs.«147575_j61632780698356_1_alg».proof.Proof.Gen.ReferenceIdeal
import proofs.«147575_j61632780698356_1_alg».proof.Proof.Gen.Pre_finite_inputs
import proofs.«147575_j61632780698356_1_alg».proof.Proof.Gen.ReferenceIdeal.Run
import proofs.«147575_j61632780698356_1_alg».proof.Proof.Gen.ReferenceIdeal.Read
import proofs.«147575_j61632780698356_1_alg».proof.Proof.Chain
import proofs.«147575_j61632780698356_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at the reference's last stage of the (agreeing) argument arrays. -/
theorem algebraic : Cert.algebraic_KernelIdeal_ReferenceIdeal := by
  intro m ρ m' ρ' _ hagree
  refine ⟨fun c => Cert.ReferenceIdeal.Read.val_main_v146 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Chain.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v146_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
